-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel

variable [Facts]

def fn {F : FTy → Type} [FloatOps F] (main_arg0 : FVec F S4x2048x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  main_v3
-- ==== Kernel.lean ====
abbrev S4x2048x1024 : Shape := ⟨3, ![4, 2048, 1024]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S512x1024 : Shape := ⟨2, ![512, 1024]⟩
abbrev S512 : Shape := ⟨1, ![512]⟩
abbrev S1024x512 : Shape := ⟨2, ![1024, 512]⟩
abbrev S512x512 : Shape := ⟨2, ![512, 512]⟩

abbrev nBuf : Space → Nat
  | .hbm => 22
  | .vmem => 6
  | .smem => 0
  | _ => 0

abbrev bufTy : (tb : Table) → Fin (tcTables nBuf tb) → BufTy
  | .hbm, ⟨0, _⟩ => ⟨S4x2048x1024, .f32⟩
  | .hbm, ⟨1, _⟩ => ⟨S8192x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x1024, .f32⟩
  | .hbm, ⟨11, _⟩ => ⟨S8192x1024, .f32⟩
  | .hbm, ⟨12, _⟩ => ⟨S8192, .f32⟩
  | .hbm, ⟨13, _⟩ => ⟨S_, .f32⟩
  | .hbm, ⟨14, _⟩ => ⟨S8192, .f32⟩
  | .hbm, ⟨15, _⟩ => ⟨S8192, .f32⟩
  | .hbm, ⟨16, _⟩ => ⟨S8192, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512, .f32⟩
  | .local _ .vmem, ⟨5, _⟩ => ⟨S512, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S4x2048x1024_S8192x1024 : S4x2048x1024.ShapeCasts S8192x1024
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  transposes_S512x1024_p1_0_S1024x512 : S512x1024.Transposes [1, 0] S1024x512
  iota_S512x512_d0_w32 : S512x512.Iotas .tc 32 [0]
  iota_S512x512_d1_w32 : S512x512.Iotas .tc 32 [1]
  reduces_S512x512_S512 : S512x512.Reduces [1] S512
  inb_S512_S512_0 : ∀ a, (![0] : Fin 1 → Nat) a + S512.size a ≤ S512.size a
  h_S512 : 0 < S512.numel
  shapeCasts_S512_S512 : S512.ShapeCasts S512
  bcast_S_S8192 : S_.BroadcastsInDim S8192 (![] : Fin 0 → Fin S8192.rank)
  reducesTo_S8192_S_d0 : S8192.ReducesTo [0] S_
  dot_S512x1024_S1024x512_S512x512_1_0_0_1_n_n_wf : DotDims.WF S512x1024 S1024x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x1024.size a
  hwx0_1 : ∀ i : grid0.Coords, EltTy.bits .f32 = 32 ∨ (Rect.block (s := S8192x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S8192.size a
  hwx0_2 : ∀ i : grid0.Coords, EltTy.bits .f32 = 32 ∨ (Rect.block (s := S8192) S512.size (cc0_transform_2 i) (hinb0_2 i)).WholeWords (EltTy.packing .f32)

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf

abbrev win0_0 : Pipeline.Window sig grid0 :=
  Pipeline.Window.ofSpec (Memref.whole main_v5) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩

abbrev nBuf : Space → Nat
  | .hbm => 47
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S8192x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x1024, .f32⟩
  | .hbm, ⟨11, _⟩ => ⟨S8192x1024, .f32⟩
  | .hbm, ⟨12, _⟩ => ⟨S8192x8192, .f32⟩
  | .hbm, ⟨13, _⟩ => ⟨S_, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S8192x8192, .i32⟩
  | .hbm, ⟨27, _⟩ => ⟨S8192x8192, .i32⟩
  | .hbm, ⟨28, _⟩ => ⟨S_, .i32⟩
  | .hbm, ⟨29, _⟩ => ⟨S8192x8192, .i32⟩
  | .hbm, ⟨30, _⟩ => ⟨S8192x8192, .i32⟩
  | .hbm, ⟨31, _⟩ => ⟨S8192x8192, .i1⟩
  | .hbm, ⟨32, _⟩ => ⟨S_, .f32⟩
  | .hbm, ⟨33, _⟩ => ⟨S_, .f32⟩
  | .hbm, ⟨34, _⟩ => ⟨S8192x8192, .f32⟩
  | .hbm, ⟨35, _⟩ => ⟨S8192x8192, .f32⟩
  | .hbm, ⟨36, _⟩ => ⟨S_, .f32⟩
  | .hbm, ⟨37, _⟩ => ⟨S8192, .f32⟩
  | .hbm, ⟨38, _⟩ => ⟨S_, .f32⟩
  | .hbm, ⟨39, _⟩ => ⟨S8192, .f32⟩
  | .hbm, ⟨40, _⟩ => ⟨S8192, .f32⟩
  | .hbm, ⟨41, _⟩ => ⟨S8192, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_call1_v0 : Ref sig .tc := ⟨.hbm, 33, rfl⟩
abbrev main_call1_v1 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_cst_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_7 : Ref sig .tc := ⟨.hbm, 42, rfl⟩
abbrev main_v26 : Ref sig .tc := ⟨.hbm, 43, rfl⟩
abbrev main_cst_8 : Ref sig .tc := ⟨.hbm, 44, rfl⟩
abbrev main_v27 : Ref sig .tc := ⟨.hbm, 45, rfl⟩
abbrev main_v28 : Ref sig .tc := ⟨.hbm, 46, rfl⟩

abbrev nD : Nat := 1
abbrev τ : Topo := Topo.v7x

variable {F : FTy → Type} [FloatOps F]

class Facts₀ : Prop where
  shapeCasts_S4x2048x1024_S8192x1024 : S4x2048x1024.ShapeCasts S8192x1024
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x1024_S8192x1024_S8192x8192_1_1_0_0_n_n_wf : DotDims.WF S8192x1024 S8192x1024 S8192x8192 [1] [1] [0] [0] [] []

variable [Facts₀]

def dot_S8192x1024_S8192x1024_S8192x8192_1_1_0_0_n_n : DotDims S8192x1024 S8192x1024 S8192x8192 where
  lhsContracting := [1]
  rhsContracting := [1]
  lhsNonContracting := [0]
  rhsNonContracting := [0]
  lhsBatch := []
  rhsBatch := []
  wf := dot_S8192x1024_S8192x1024_S8192x8192_1_1_0_0_n_n_wf

class Facts : Prop extends Facts₀ where

variable [Facts]
-- ==== Proof.KB.Base.lean ====
/-
  What the two runs of the kernel body share, for the program `Kernel` at any float instance.

  The grid has 16 × 16 points; point `t` has row-block coordinate `t / 16` and column-block coordinate `t % 16`.
  Window 0 stages the 512 rows of block `t / 16` of the normalised array, window 1 the 512 rows of block `t % 16` of
  the same array, window 2 the 512 results of row block `t / 16`.  The body's one branch resets the results to `+∞`
  exactly at the points with column-block coordinate 0.  Here: a window's block at a point read off the array as the
  region finds it, that an input window's buffer holds its block at every point whether or not it was fetched there,
  and the branch condition decided over the grid.
-/
import proofs.«161005_j72189810311269_2_alg».proof.Proof.Gen.Kernel.Launch
import proofs.«161005_j72189810311269_2_alg».proof.Proof.Gen.Kernel.Skeleton
import proofs.«161005_j72189810311269_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-block window's buffer holds its block at every point: where it is not fetched the block index has not
    moved, so the block of the point before is this point's. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The column-block window's buffer holds its block at every point. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The condition of the body's branch from the grid coordinates: the column-block coordinate is zero. -/
abbrev cond0 (i : grid0.Coords) : Prop := (Scalar.cmpi .ne (Scalar.extui (Scalar.cmpi .eq (BitVec.ofNat 32 (i 1).val) 0#32)) 0#32) = 1#1
/-- It holds exactly at the points that open a row of the grid. -/
theorem hcond0 : ∀ t : Fin cfg0.N, cond0 (grid0.coords t) ↔ t.val % 16 = 0 :=
  (by decide +kernel : ∀ t : Fin grid0.N, cond0 (grid0.coords t) ↔ t.val % 16 = 0)

/-- One staging buffer of the result window, through which its contents are stated (the choice does not matter). -/
abbrev VO2 : View sig .tc .vmem S512 .f32 := (Memref.whole cc0_stg2_0 : Memref sig .tc .vmem S512 .f32).view
/-- Each window's current staging memref at point `t`, as the pipeline passes it, and its wholeness. -/
abbrev ms0 (t : Fin cfg0.N) : Memref sig .tc .vmem S512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512 .f32 := win0_2.stage (cfg0.slots t 2)
abbrev hs2 (t : Fin cfg0.N) : (ms2 t).IsWhole := hstage0_2 ((cfg0.slots t 2).cast nbuf0_2)

end Cert.Kernel.Body

end
-- ==== Proof.KB.RunA.lean ====
/-
  The kernel body of `Kernel` run on any whole staging memrefs, at a point where the branch is taken (the column-block coordinate is 0): the results are first reset to `+∞`, read back, and overwritten by their minimum with the block's row minima.
  The run holds the two input blocks as they were and leaves the result buffer with the stores written, as a list of pieces
  the run itself finds.
-/
import proofs.«161005_j72189810311269_2_alg».proof.Proof.KB.Base

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's stores leave in the result buffer at such a point, with the proof that the body runs to its
    continuation holding the inputs' buffers as they were and the result buffer with those pieces written. -/
noncomputable def kernelRun_A (c : Dev nD) (i : grid0.Coords) (arg2 : Memref sig .tc .vmem S512x1024 .f32) (harg2 : arg2.IsWhole)
    (arg3 : Memref sig .tc .vmem S512x1024 .f32) (harg3 : arg3.IsWhole) (arg4 : Memref sig .tc .vmem S512 .f32) (harg4 : arg4.IsWhole)
    (hc0 : cond0 i) (x0 x1 : Vec F S512x1024 .f32) :
    { L2 : List (View.Piece (Elt F) S512 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc0__koleo_kernel i arg2 harg2 arg3 harg3 arg4 harg4) K } := by
  refine ⟨?_, fun E K => ?run⟩
  case run =>
    simp only [cc0__koleo_kernel_eq_skeleton]; unfold cc0__koleo_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Body

end
-- ==== Proof.KB.RunB.lean ====
/-
  The kernel body of `Kernel` run on any whole staging memrefs, at a point where the branch is not taken: the results the point before left are read and overwritten by their minimum with the block's row minima.
  The run holds the two input blocks as they were and leaves the result buffer with the stores written, as a list of pieces
  the run itself finds.
-/
import proofs.«161005_j72189810311269_2_alg».proof.Proof.KB.RunA

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's stores leave in the result buffer at such a point, with the proof that the body runs to its
    continuation holding the inputs' buffers as they were and the result buffer with those pieces written. -/
noncomputable def kernelRun_B (c : Dev nD) (i : grid0.Coords) (arg2 : Memref sig .tc .vmem S512x1024 .f32) (harg2 : arg2.IsWhole)
    (arg3 : Memref sig .tc .vmem S512x1024 .f32) (harg3 : arg3.IsWhole) (arg4 : Memref sig .tc .vmem S512 .f32) (harg4 : arg4.IsWhole)
    (hc0 : ¬cond0 i) (x0 x1 : Vec F S512x1024 .f32) (xo : Vec F S512 .f32) :
    { L2 : List (View.Piece (Elt F) S512 .f32) //
      ∀ (E : Set ℕ) (K : PUnit → sProp 𝕄),
        iprop(owns (c : Thread nD τ) arg2 fullShare x0 ∗ owns (c : Thread nD τ) arg3 fullShare x1
            ∗ owns (c : Thread nD τ) arg4 fullShare xo
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc0__koleo_kernel i arg2 harg2 arg3 harg3 arg4 harg4) K } := by
  refine ⟨?_, fun E K => ?run⟩
  case run =>
    simp only [cc0__koleo_kernel_eq_skeleton]; unfold cc0__koleo_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Body

end
-- ==== Proof.KB.Data.lean ====
/-
  The proof data of the one pipeline of `Kernel` and its body obligation, at any float instance.

  After the body at point `t` the two input buffers still hold their blocks, and the result buffer holds, at a point
  that opens a row of the grid, what the reset-and-fold leaves over the two blocks, and at any other point what the fold
  leaves over the two blocks and the contents the point before left: a recursion on the point.  The result buffer is
  written back only after the last point of a row of the grid, so between two points of one row it keeps its contents.
  The input array is held at half the full share by each of the two windows that stage it.
-/
import proofs.«161005_j72189810311269_2_alg».proof.Proof.KB.RunB

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- At a point that opens a row the body's stores tile the result block, so they cover it. -/
theorem cover_A (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512 .f32) (harg4 : arg4.IsWhole) (hc0 : cond0 i)
    (x0 x1 : Vec F S512x1024 .f32) (y : S512.Idx) :
    ∃ pc ∈ (kernelRun_A c i arg2 harg2 arg3 harg3 arg4 harg4 hc0 x0 x1).1, y ∈ pc.1.set :=
  View.cover_of_tiledL (kernelRun_A c i arg2 harg2 arg3 harg3 arg4 harg4 hc0 x0 x1).1 S512.size (by sl_kernel_rfl) y

/-- What such a point leaves in the result buffer: its pieces read back. -/
def out_A (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512 .f32) (harg4 : arg4.IsWhole) (hc0 : cond0 i)
    (x0 x1 : Vec F S512x1024 .f32) : Vec F S512 .f32 :=
  VO2.read (Elt F) (VO2.writes (Elt F) VO2.junk (kernelRun_A c i arg2 harg2 arg3 harg3 arg4 harg4 hc0 x0 x1).1)

/-- At any other point the body's one store tiles the result block, so it covers it. -/
theorem cover_B (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512 .f32) (harg4 : arg4.IsWhole) (hc0 : ¬cond0 i)
    (x0 x1 : Vec F S512x1024 .f32) (xo : Vec F S512 .f32) (y : S512.Idx) :
    ∃ pc ∈ (kernelRun_B c i arg2 harg2 arg3 harg3 arg4 harg4 hc0 x0 x1 xo).1, y ∈ pc.1.set :=
  View.cover_of_tiledL (kernelRun_B c i arg2 harg2 arg3 harg3 arg4 harg4 hc0 x0 x1 xo).1 S512.size (by sl_kernel_rfl) y

/-- What such a point leaves in the result buffer, over the contents `xo` it found there. -/
def out_B (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512 .f32) (harg4 : arg4.IsWhole) (hc0 : ¬cond0 i)
    (x0 x1 : Vec F S512x1024 .f32) (xo : Vec F S512 .f32) : Vec F S512 .f32 :=
  VO2.read (Elt F) (VO2.writes (Elt F) VO2.junk (kernelRun_B c i arg2 harg2 arg3 harg3 arg4 harg4 hc0 x0 x1 xo).1)

/-- The running contents of the result buffer after the body at position `n`: reset and folded at a point that opens a
    row of the grid, folded over what position `n - 1` left otherwise. -/
def outsAt (c : Dev nD) : (n : ℕ) → n < cfg0.N → Vec F S512 .f32
  | 0, hn => out_A c (grid0.coords ⟨0, hn⟩) (ms0 ⟨0, hn⟩) (hs0 ⟨0, hn⟩) (ms1 ⟨0, hn⟩) (hs1 ⟨0, hn⟩) (ms2 ⟨0, hn⟩) (hs2 ⟨0, hn⟩) ((hcond0 ⟨0, hn⟩).mpr (Nat.zero_mod _)) (iblk V c 0 ⟨0, hn⟩) (iblk V c 1 ⟨0, hn⟩)
  | n + 1, hn =>
    if h0 : (n + 1) % 16 = 0 then
      out_A c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) ((hcond0 ⟨n + 1, hn⟩).mpr h0) (iblk V c 0 ⟨n + 1, hn⟩) (iblk V c 1 ⟨n + 1, hn⟩)
    else
      out_B c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (fun h => h0 ((hcond0 ⟨n + 1, hn⟩).mp h)) (iblk V c 0 ⟨n + 1, hn⟩) (iblk V c 1 ⟨n + 1, hn⟩) (outsAt c n (Nat.lt_of_succ_lt hn))

/-- The running contents at a point that opens a row. -/
theorem outsAt_A (c : Dev nD) (t : Fin cfg0.N) (h0 : t.val % 16 = 0) :
    outsAt V c t.val t.isLt = out_A c (grid0.coords t) (ms0 t) (hs0 t) (ms1 t) (hs1 t) (ms2 t) (hs2 t) ((hcond0 t).mpr h0) (iblk V c 0 t) (iblk V c 1 t) := by
  obtain ⟨n, hn⟩ := t
  cases n with
  | zero => exact rfl
  | succ n => exact (dif_pos h0).trans rfl

/-- The running contents at any other point, over what the point before left. -/
theorem outsAt_B (c : Dev nD) (t : Fin cfg0.N) (h0 : ¬t.val % 16 = 0) :
    outsAt V c t.val t.isLt = out_B c (grid0.coords t) (ms0 t) (hs0 t) (ms1 t) (hs1 t) (ms2 t) (hs2 t) (fun h => h0 ((hcond0 t).mp h)) (iblk V c 0 t) (iblk V c 1 t)
      (outsAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The proof data: the arrays as the region finds them; after the body each input's buffer at its block and the result
    buffer at its running contents; the class's invariant; nothing owed; the input array's share halved between the two
    windows that stage it. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => outsAt V c t.val t.isLt
  Φ _ := Pipeline.ΦA spec0 c
  q w := match w with
    | ⟨0, _⟩ => fullShare.left
    | ⟨1, _⟩ => fullShare.right
    | ⟨2, _⟩ => fullShare
  owed _ := 0

theorem A_eq (c : Dev nD) (w : Fin cfg0.W) : (dat0 V c).A w = V c (Pipeline.arrRef spec0 w) := by
  dsimp only [dat0]
theorem q_0 (c : Dev nD) : (dat0 V c).q 0 = fullShare.left := rfl
theorem q_1 (c : Dev nD) : (dat0 V c).q 1 = fullShare.right := rfl

theorem after_0 (c : Dev nD) (t : Fin cfg0.N) : (dat0 V c).after 0 t = iblk V c 0 t := by dsimp only [dat0]
theorem after_1 (c : Dev nD) (t : Fin cfg0.N) : (dat0 V c).after 1 t = iblk V c 1 t := by dsimp only [dat0]
theorem after_2 (c : Dev nD) (t : Fin cfg0.N) : (dat0 V c).after 2 t = outsAt V c t.val t.isLt := by dsimp only [dat0]

theorem before_0 (c : Dev nD) (t : Fin cfg0.N) (d) : (dat0 V c).before 0 t d = iblk V c 0 t :=
  before_0_of V (dat0 V c) (A_eq V c 0) (after_0 V c) t d
theorem before_1 (c : Dev nD) (t : Fin cfg0.N) (d) : (dat0 V c).before 1 t d = iblk V c 1 t :=
  before_1_of V (dat0 V c) (A_eq V c 1) (after_1 V c) t d
/-- Inside a row of the grid the result buffer holds what the body left at the point before: it is not written back
    between. -/
theorem before_2_B (c : Dev nD) (t : Fin cfg0.N) (h0 : ¬t.val % 16 = 0) (d) :
    (dat0 V c).before 2 t d = outsAt V c (t.val - 1) (Nat.lt_of_le_of_lt (Nat.sub_le _ _) t.isLt) := by
  have hN : t.val < 256 := lt_of_lt_of_eq t.isLt (show cfg0.N = 256 from N_0)
  rw [Dat.before_out_kept _ 2 rfl t (by omega) (Bool.eq_false_iff.mpr fun h => by have := (flush0_2 _).mp h; dsimp only at this; omega)
    (fun _ => rfl) (fun _ _ => rfl)]
  dsimp only [dat0]

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d))
    ∗ (∃ d, owns (c : Thread nD τ) (ms2 t) fullShare ((dat0 V c).before 2 t d)))

/-- and what it returns. -/
def bodyPost (c : Dev nD) (t : Fin cfg0.N) : sProp 𝕄 :=
  iprop((dat0 V c).Φ t.succ ∗ (dat0 V c).owesAt () t.succ
    ∗ owns (c : Thread nD τ) (ms0 t) fullShare ((dat0 V c).after 0 t)
    ∗ owns (c : Thread nD τ) (ms1 t) fullShare ((dat0 V c).after 1 t)
    ∗ owns (c : Thread nD τ) (ms2 t) fullShare ((dat0 V c).after 2 t))

set_option maxHeartbeats 800000 in
/-- The body at any point: the inputs' buffers hold their blocks; the closed form of the branch condition says which
    case the point is in, and inside a row the result buffer holds what the point before left; so that case's run
    applies; the invariant passes through unread; nothing is owed. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat0 V c).Φ t.succ = (dat0 V c).Φ t.castSucc from rfl,
    show (dat0 V c).owesAt () t.succ = (dat0 V c).owesAt () t.castSucc from rfl,
    after_0, after_1, after_2]
  have hN : t.val < 256 := lt_of_lt_of_eq t.isLt (show cfg0.N = 256 from N_0)
  by_cases h0 : t.val % 16 = 0
  · rw [outsAt_A V c t h0]
    unfold out_A
    iintro ⟨HΦ, Ho, ⟨%d0, H0⟩, ⟨%d1, H1⟩, ⟨%d2, H2⟩⟩
    iapply ((kernelRun_A c (grid0.coords t) _ _ _ _ _ _ ((hcond0 t).mpr h0) (iblk V c 0 t) (iblk V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover_A c _ _ _ _ _ _ _ _ _ _)
  · rw [outsAt_B V c t h0]
    simp only [before_2_B V c t h0]
    unfold out_B
    iintro ⟨HΦ, Ho, ⟨%d0, H0⟩, ⟨%d1, H1⟩, ⟨%d2, H2⟩⟩
    iapply ((kernelRun_B c (grid0.coords t) _ _ _ _ _ _ (fun h => h0 ((hcond0 t).mp h)) (iblk V c 0 t) (iblk V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover_B c _ _ _ _ _ _ _ _ _ _ _)

/-- The library's body obligation, at every point. -/
theorem body_obligation (c : Dev nD) : BodyObligation (dat0 (F := F) V c) (defs₀ (F := F)) Variants.none () Set.univ := fun t => by
  rw [bigSep_W0, bigSep_W0]
  exact sound_body V c t

end Cert.Kernel.Body

end
-- ==== Proof.SharedArraysK.lean ====
/-
  Two separation-logic entailments for a pipeline two of whose three windows read the SAME array.

  Windows 0 and 1 are inputs on one buffer, window 2 is the output on another, so the map from windows to buffers is
  not injective and the core's unscoped buffers cannot be dealt one whole buffer per window.  Instead the shared
  buffer's full share is cut into its left and right halves: window 0 holds the buffer at the left half, window 1 at
  the right half, and the output window holds its own buffer at the full share.

  Entry: the core's unscoped buffers at contents `V` are the distinct buffers behind the windows (two of them) and the
  rest; the shared buffer's points-to at the full share is the two points-tos at the half shares, at the same contents,
  so the three windows' arrays are obtained at the contents read off `V`.

  Exit: conversely, the three windows' arrays at contents `Fw` and the rest at `V` give the core's unscoped buffers at
  any `V'` that has the arrays at `Fw` and agrees with `V` elsewhere.  Windows 0 and 1 then both hold the shared
  buffer, at `Fw 0` and `Fw 1`; both are `V'` of that one buffer, hence equal, which is what lets the two halves be
  joined back into the full share.

  Everything is stated for an arbitrary float instance: no arithmetic is involved.
-/
import proofs.«161005_j72189810311269_2_alg».proof.Proof.Gen.Kernel.Launch
import Idealize.ShloMosaic.Lib.Pipeline.Regions
import Idealize.ShloMosaic.Lib.Pipeline.RegionsLoop
import Idealize.ShloMosaic.Lib.Pipeline.Kit

noncomputable section

namespace Cert.Kernel.Shared

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Kernel.Gen

variable {F : FTy → Type} [FloatOps F]

local notation "𝕄" => MT nD τ sig Unit (Elt F) ℕ (UR sig nD τ) ℕ

/-- The prefetched tables' admissible contents: the one pipeline has no table. -/
abbrev adm : (p : Fin 1) → (pcfgs (F := F) p).Adm := fun p => (cfgs p).toPCfg_adm

/-- The distinct buffers behind the three windows are two: the shared input buffer and the output buffer, each whole
    at the full share. -/
theorem arrBufs_chain (c : Dev nD) (V : (b : Ref sig .tc) → Buf (Elt F) ((c : Thread nD τ).loc b)) :
    (Pipeline.arrBufs spec0 c V : sProp 𝕄)
      = iprop((((c : Thread nD τ).loc main_v5) ↦{fullShare} V main_v5) ∗ (((c : Thread nD τ).loc main_v6) ↦{fullShare} V main_v6)) := by
  unfold Pipeline.arrBufs
  exact bigSep_eq_bigSepL_of_eq [main_v5, main_v6] (by decide) (by decide) _

variable (pdats : (p : Fin 1) → (c : Dev nD) → Pipeline.Dat τ (Elt F) Unit ℕ (UR sig nD τ) ℕ (Pipeline.pin (pcfgs (F := F)) adm p) c)

/-- The three windows' arrays one by one: each array is a whole buffer, so its element set is everything; the two
    input windows hold the shared buffer at their own shares, the output window holds its buffer at the full share. -/
theorem arrays_chain (c : Dev nD) (Fw : (w : Fin 3) → Buf (Elt F) ((spec0 w).arr.view.loc (c : Thread nD τ))) :
    ((pdats 0 c).arrays Fw : sProp 𝕄)
      = iprop((((c : Thread nD τ).loc main_v5) ↦{(pdats 0 c).q 0} Fw 0) ∗ (((c : Thread nD τ).loc main_v5) ↦{(pdats 0 c).q 1} Fw 1)
          ∗ (((c : Thread nD τ).loc main_v6) ↦{fullShare} Fw 2)) := by
  unfold Pipeline.Dat.arrays
  refine (bigSep_W0 _).trans ?_
  refine congrArg₂ _ ?_ (congrArg₂ _ ?_ ?_)
  · rw [(arr_whole0 0).set_eq_univ]
    rfl
  · rw [(arr_whole0 1).set_eq_univ]
    rfl
  · rw [(arr_whole0 2).set_eq_univ]
    rfl

/-- ENTRY.  A core's unscoped buffers at contents `V` are the pipeline's arrays at the entry contents — those being
    read off `V` (`hA`), window 0 at the left half of the shared buffer's share and window 1 at the right half — and
    the unscoped rest: the full share of the shared buffer is the composite of its two halves. -/
theorem arrays_of_unscopedBufs_shared (c : Dev nD) (hq0 : (pdats 0 c).q 0 = fullShare.left) (hq1 : (pdats 0 c).q 1 = fullShare.right)
    (V : (b : Ref sig .tc) → Buf (Elt F) ((c : Thread nD τ).loc b)) (hA : ∀ w, (pdats 0 c).A w = V (Pipeline.arrRef spec0 w)) :
    (unscopedBufs c V : sProp 𝕄) ⊢ iprop((pdats 0 c).arrays (pdats 0 c).A ∗ Pipeline.unscopedRest spec0 c V) := by
  have hsplit := Pipeline.unscopedBufs_split₀ (Ix := Unit) (Name := ℕ) (U := UR sig nD τ) (Lvl := ℕ)
    (Pipeline.pin (pcfgs (F := F)) adm) 0 winFacts₀0.arr_unscoped c V
  rw [hsplit]
  refine sep_mono ?_ .rfl
  refine (Entails.of_eq (arrBufs_chain c V)).trans ?_
  refine BIBase.Entails.trans ?_ (Entails.of_eq (arrays_chain pdats c _).symm)
  rw [hq0, hq1, hA 0, hA 1, hA 2]
  have hhalve := (pointsTo_share (PosShare.mem_left_op_right fullShare)
    : (((c : Thread nD τ).loc main_v5) ↦{fullShare} V main_v5 : sProp 𝕄) ⊣⊢ _).1
  iintro ⟨H5, H6⟩
  ihave H := hhalve $$ H5
  icases H with ⟨Hl, Hr⟩
  isplitl [Hl]; · iexact Hl
  isplitl [Hr]; · iexact Hr
  iexact H6

/-- EXIT.  The pipeline's arrays at contents `Fw` (window 0 at the left half, window 1 at the right half) and the
    unscoped rest at `V` are the core's unscoped buffers at any valuation `V'` that has the arrays at `Fw` (`hF`) and
    agrees with `V` off them (`hrest`).  The two input windows hold one buffer; `hF` makes both their contents `V'` of
    that buffer, so the two half shares join into the full share at one contents. -/
theorem unscopedBufs_of_arrays_shared (c : Dev nD) (hq0 : (pdats 0 c).q 0 = fullShare.left) (hq1 : (pdats 0 c).q 1 = fullShare.right)
    (V V' : (b : Ref sig .tc) → Buf (Elt F) ((c : Thread nD τ).loc b))
    (Fw : (w : Fin 3) → Buf (Elt F) (((spec0 w).arr.view.loc (c : Thread nD τ))))
    (hF : ∀ w, Fw w = V' (Pipeline.arrRef spec0 w))
    (hrest : ∀ b, b ∉ Finset.univ.image (Pipeline.arrRef spec0) → V' b = V b) :
    iprop((pdats 0 c).arrays Fw ∗ Pipeline.unscopedRest spec0 c V) ⊢ (unscopedBufs c V' : sProp 𝕄) := by
  have hsplit := Pipeline.unscopedBufs_split₀ (Ix := Unit) (Name := ℕ) (U := UR sig nD τ) (Lvl := ℕ)
    (Pipeline.pin (pcfgs (F := F)) adm) 0 winFacts₀0.arr_unscoped c V'
  rw [hsplit]
  refine sep_mono ?_ (Entails.of_eq ?_)
  · refine (Entails.of_eq (arrays_chain pdats c Fw)).trans ?_
    refine BIBase.Entails.trans ?_ (Entails.of_eq (arrBufs_chain c V').symm)
    rw [hq0, hq1, hF 0, hF 1, hF 2]
    have hjoin := (pointsTo_share (PosShare.mem_left_op_right fullShare)
      : (((c : Thread nD τ).loc main_v5) ↦{fullShare} V' main_v5 : sProp 𝕄) ⊣⊢ _).2
    iintro ⟨Hl, Hr, H6⟩
    isplitl [Hl Hr]
    · iapply hjoin
      isplitl [Hl]; · iexact Hl
      iexact Hr
    iexact H6
  · unfold Pipeline.unscopedRest
    exact bigSep_congr fun b hb => by rw [hrest b (Finset.mem_sdiff.mp hb).2]

end Cert.Kernel.Shared

end
-- ==== Proof.KB.Run.lean ====
/-
  The run of `Kernel`'s @main from the launch to the return, at any float instance: three stretches of host operations
  (the reshape; the row norms; the clamp, broadcast and division that normalise the rows), the one kernel region, and
  the host epilogue.  The buffer contents at each boundary are a fold through @main; the region is entered with every
  unscoped buffer held whole, splits the normalised array's buffer in two halves for the two windows that stage it,
  and gives everything back with the result array at what the pipeline's write-backs leave and every other buffer as
  found.  Every weakly fair execution terminates, without a fault, in a state whose unscoped buffers hold the last
  boundary's contents; in particular the argument array is as launched.
-/
import proofs.«161005_j72189810311269_2_alg».proof.Proof.KB.Data
import proofs.«161005_j72189810311269_2_alg».proof.Proof.SharedArraysK
import Idealize.ShloMosaic.Lib.Pipeline.RegionsLoop
import Idealize.ShloMosaic.Lib.Pipeline.FrameSuffix

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the reshape. -/
abbrev W1 : Dev nD → Valuation τ sig (Elt F) := fun c => StableHlo.after hostOps0 (W0 m ρ c)
/-- After the row norms. -/
abbrev W2 : Dev nD → Valuation τ sig (Elt F) := fun c => StableHlo.after hostOps0_1 (W1 m ρ c)
/-- After the normalisation: the region's entry. -/
abbrev W3 : Dev nD → Valuation τ sig (Elt F) := fun c => StableHlo.after hostOps0_2 (W2 m ρ c)
/-- The same read at the TensorCore's references (what the region's proof data take). -/
abbrev V3 : (c : Dev nD) → (b : Ref sig .tc) → Buf (Elt F) ((c : Thread nD τ).loc b) := fun c b => W3 m ρ c b
/-- At the region's exit: the result array at what the write-backs leave, every other buffer as entered. -/
def W4 (c : Dev nD) : Valuation τ sig (Elt F) := fun b =>
  if h : Proc.devRef .tc main_v6 = b then
    cast (congrArg (fun b' : DevRef τ sig => b'.ty.Contents (Elt F)) h) ((dat0 (V3 m ρ) c).arrAt 2 cfg0.N)
  else W3 m ρ c b
theorem W4_v6 (c : Dev nD) : W4 m ρ c (Proc.devRef .tc main_v6) = (dat0 (V3 m ρ) c).arrAt 2 cfg0.N := by
  unfold W4; rw [dif_pos rfl]; rfl
theorem W4_of_ne (c : Dev nD) (b : Ref sig .tc) (hb : main_v6 ≠ b) :
    W4 m ρ c (Proc.devRef .tc b) = W3 m ρ c (Proc.devRef .tc b) := by
  unfold W4; rw [dif_neg]; intro e; exact hb (Proc.devRef_injective _ e)
abbrev V4 : (c : Dev nD) → (b : Ref sig .tc) → Buf (Elt F) ((c : Thread nD τ).loc b) := fun c b => W4 m ρ c b
/-- After the host epilogue: the last boundary. -/
abbrev W5 : Dev nD → Valuation τ sig (Elt F) := fun c => StableHlo.after hostOps1 (W4 m ρ c)

/-- At the exit each array holds what the pipeline leaves: the two input windows their array as found, the result
    window its write-backs. -/
theorem hF (c : Dev nD) (w : Fin cfg0.W) : (dat0 (V3 m ρ) c).arrAt w cfg0.N = V4 m ρ c (Pipeline.arrRef spec0 w) :=
  match w with
  | ⟨0, _⟩ => (((dat0 (V3 m ρ) c).arrAt_in 0 rfl _).trans (A_eq (V3 m ρ) c 0)).trans (W4_of_ne m ρ c main_v5 (by decide)).symm
  | ⟨1, _⟩ => (((dat0 (V3 m ρ) c).arrAt_in 1 rfl _).trans (A_eq (V3 m ρ) c 1)).trans (W4_of_ne m ρ c main_v5 (by decide)).symm
  | ⟨2, _⟩ => (W4_v6 m ρ c).symm
theorem hrest (c : Dev nD) : ∀ b, b ∉ Finset.univ.image (Pipeline.arrRef spec0) → V4 m ρ c b = V3 m ρ c b :=
  fun b hb => W4_of_ne m ρ c b fun e => hb (Finset.mem_image.mpr ⟨2, Finset.mem_univ _, e⟩)

/-- The argument ends as launched: no host operation writes it and the region only reads arrays that are not it. -/
theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_forall_not_mem (b := Proc.devRef .tc main_arg0) _ _ (List.forall_iff_forall_mem.mp (by
          simp only [hostOps1, StableHlo.TRef.nullary, StableHlo.TRef.unary, StableHlo.TRef.binary, StableHlo.TRef.of, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps0_2, StableHlo.TRef.nullary, StableHlo.TRef.unary, StableHlo.TRef.binary, StableHlo.TRef.of, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := StableHlo.after_of_forall_not_mem (b := Proc.devRef .tc main_arg0) _ _ (List.forall_iff_forall_mem.mp (by
          simp only [hostOps0_1, StableHlo.TRef.nullary, StableHlo.TRef.unary, StableHlo.TRef.binary, StableHlo.TRef.of, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [hostOps0, StableHlo.TRef.nullary, StableHlo.TRef.unary, StableHlo.TRef.binary, StableHlo.TRef.of, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-! ## The proof data family and the thread state -/

/-- The one pipeline's proof data, at the region's entry contents. -/
def pdats : (p : Fin 1) → (c : Dev nD) → Dat τ (Elt F) Unit ℕ (UR sig nD τ) ℕ (Pipeline.pin (pcfgs (F := F)) Shared.adm p) c
  | ⟨0, _⟩ => fun c => dat0 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the last boundary's contents, the generator register at some state. -/
abbrev Tₙ (c : Dev nD) : sProp 𝕄 := iprop(StableHlo.held (c : Thread nD τ) (Pipeline.ucRefs τ sig) (W5 m ρ c) ∗ ∃ r, prngReg c r)

/-! ## The region as a segment -/

set_option backward.isDefEq.respectTransparency.types false in
/-- The region over the thread state: entered from every unscoped buffer at `W3`, left at `W4`. -/
def reg0 : Pipeline.RegionSeg (pcfgs (F := F)) Shared.adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Shared.arrays_of_unscopedBufs_shared (pdats m ρ) c rfl rfl (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Shared.unscopedBufs_of_arrays_shared (pdats m ρ) c rfl rfl
      (V3 m ρ c) (V4 m ρ c) ((pdats m ρ 0 c).arrAt · cfg0.N) (hF m ρ c) (hrest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) Shared.adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)) ]
/-- @main is the run of the segments. -/
theorem main_run (c : Dev nD) : main (F := F) c = Pipeline.Seg.run (segs m ρ) := (main_chain c).trans (by chain_rfl)

set_option backward.isDefEq.respectTransparency.types false in
/-- From any memory with zero counters every weakly fair execution of @main terminates, nothing faulting, and every
    final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) Shared.adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The frame: every weakly fair execution terminates, nothing faulting, the argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c _ (mem_uc main_arg0 (by decide))).trans (W5_main_arg0 m ρ c)) (run_all m ρ)

end Cert.Kernel.Body

end
-- ==== Proof.KI.Base.lean ====
/-
  What the two runs of the kernel body share, for the program `KernelIdeal` at any float instance.

  The grid has 16 × 16 points; point `t` has row-block coordinate `t / 16` and column-block coordinate `t % 16`.
  Window 0 stages the 512 rows of block `t / 16` of the normalised array, window 1 the 512 rows of block `t % 16` of
  the same array, window 2 the 512 results of row block `t / 16`.  The body's one branch resets the results to `+∞`
  exactly at the points with column-block coordinate 0.  Here: a window's block at a point read off the array as the
  region finds it, that an input window's buffer holds its block at every point whether or not it was fetched there,
  and the branch condition decided over the grid.
-/
import proofs.«161005_j72189810311269_2_alg».proof.Proof.Gen.KernelIdeal.Launch
import proofs.«161005_j72189810311269_2_alg».proof.Proof.Gen.KernelIdeal.Skeleton
import proofs.«161005_j72189810311269_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-block window's buffer holds its block at every point: where it is not fetched the block index has not
    moved, so the block of the point before is this point's. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The column-block window's buffer holds its block at every point. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The condition of the body's branch from the grid coordinates: the column-block coordinate is zero. -/
abbrev cond0 (i : grid0.Coords) : Prop := (Scalar.cmpi .ne (Scalar.extui (Scalar.cmpi .eq (BitVec.ofNat 32 (i 1).val) 0#32)) 0#32) = 1#1
/-- It holds exactly at the points that open a row of the grid. -/
theorem hcond0 : ∀ t : Fin cfg0.N, cond0 (grid0.coords t) ↔ t.val % 16 = 0 :=
  (by decide +kernel : ∀ t : Fin grid0.N, cond0 (grid0.coords t) ↔ t.val % 16 = 0)

/-- One staging buffer of the result window, through which its contents are stated (the choice does not matter). -/
abbrev VO2 : View sig .tc .vmem S512 .f32 := (Memref.whole cc0_stg2_0 : Memref sig .tc .vmem S512 .f32).view
/-- Each window's current staging memref at point `t`, as the pipeline passes it, and its wholeness. -/
abbrev ms0 (t : Fin cfg0.N) : Memref sig .tc .vmem S512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512 .f32 := win0_2.stage (cfg0.slots t 2)
abbrev hs2 (t : Fin cfg0.N) : (ms2 t).IsWhole := hstage0_2 ((cfg0.slots t 2).cast nbuf0_2)

end Cert.KernelIdeal.Body

end
-- ==== Proof.KI.RunA.lean ====
/-
  The kernel body of `KernelIdeal` run on any whole staging memrefs, at a point where the branch is taken (the column-block coordinate is 0): the results are first reset to `+∞`, read back, and overwritten by their minimum with the block's row minima.
  The run holds the two input blocks as they were and leaves the result buffer with the stores written, as a list of pieces
  the run itself finds.
-/
import proofs.«161005_j72189810311269_2_alg».proof.Proof.KI.Base

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave in the result buffer at such a point, with the proof that the body runs to its
    continuation holding the inputs' buffers as they were and the result buffer with those pieces written. -/
noncomputable def kernelRun_A (c : Dev nD) (i : grid0.Coords) (arg2 : Memref sig .tc .vmem S512x1024 .f32) (harg2 : arg2.IsWhole)
    (arg3 : Memref sig .tc .vmem S512x1024 .f32) (harg3 : arg3.IsWhole) (arg4 : Memref sig .tc .vmem S512 .f32) (harg4 : arg4.IsWhole)
    (hc0 : cond0 i) (x0 x1 : Vec F S512x1024 .f32) :
    { L2 : List (View.Piece (Elt F) S512 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc0__koleo_kernel i arg2 harg2 arg3 harg3 arg4 harg4) K } := by
  refine ⟨?_, fun E K => ?run⟩
  case run =>
    simp only [cc0__koleo_kernel_eq_skeleton]; unfold cc0__koleo_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Body

end
-- ==== Proof.KI.RunB.lean ====
/-
  The kernel body of `KernelIdeal` run on any whole staging memrefs, at a point where the branch is not taken: the results the point before left are read and overwritten by their minimum with the block's row minima.
  The run holds the two input blocks as they were and leaves the result buffer with the stores written, as a list of pieces
  the run itself finds.
-/
import proofs.«161005_j72189810311269_2_alg».proof.Proof.KI.RunA

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave in the result buffer at such a point, with the proof that the body runs to its
    continuation holding the inputs' buffers as they were and the result buffer with those pieces written. -/
noncomputable def kernelRun_B (c : Dev nD) (i : grid0.Coords) (arg2 : Memref sig .tc .vmem S512x1024 .f32) (harg2 : arg2.IsWhole)
    (arg3 : Memref sig .tc .vmem S512x1024 .f32) (harg3 : arg3.IsWhole) (arg4 : Memref sig .tc .vmem S512 .f32) (harg4 : arg4.IsWhole)
    (hc0 : ¬cond0 i) (x0 x1 : Vec F S512x1024 .f32) (xo : Vec F S512 .f32) :
    { L2 : List (View.Piece (Elt F) S512 .f32) //
      ∀ (E : Set ℕ) (K : PUnit → sProp 𝕄),
        iprop(owns (c : Thread nD τ) arg2 fullShare x0 ∗ owns (c : Thread nD τ) arg3 fullShare x1
            ∗ owns (c : Thread nD τ) arg4 fullShare xo
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc0__koleo_kernel i arg2 harg2 arg3 harg3 arg4 harg4) K } := by
  refine ⟨?_, fun E K => ?run⟩
  case run =>
    simp only [cc0__koleo_kernel_eq_skeleton]; unfold cc0__koleo_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Body

end
-- ==== Proof.KI.Data.lean ====
/-
  The proof data of the one pipeline of `KernelIdeal` and its body obligation, at any float instance.

  After the body at point `t` the two input buffers still hold their blocks, and the result buffer holds, at a point
  that opens a row of the grid, what the reset-and-fold leaves over the two blocks, and at any other point what the fold
  leaves over the two blocks and the contents the point before left: a recursion on the point.  The result buffer is
  written back only after the last point of a row of the grid, so between two points of one row it keeps its contents.
  The input array is held at half the full share by each of the two windows that stage it.
-/
import proofs.«161005_j72189810311269_2_alg».proof.Proof.KI.RunB

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- At a point that opens a row the body's stores tile the result block, so they cover it. -/
theorem cover_A (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512 .f32) (harg4 : arg4.IsWhole) (hc0 : cond0 i)
    (x0 x1 : Vec F S512x1024 .f32) (y : S512.Idx) :
    ∃ pc ∈ (kernelRun_A c i arg2 harg2 arg3 harg3 arg4 harg4 hc0 x0 x1).1, y ∈ pc.1.set :=
  View.cover_of_tiledL (kernelRun_A c i arg2 harg2 arg3 harg3 arg4 harg4 hc0 x0 x1).1 S512.size (by sl_kernel_rfl) y

/-- What such a point leaves in the result buffer: its pieces read back. -/
def out_A (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512 .f32) (harg4 : arg4.IsWhole) (hc0 : cond0 i)
    (x0 x1 : Vec F S512x1024 .f32) : Vec F S512 .f32 :=
  VO2.read (Elt F) (VO2.writes (Elt F) VO2.junk (kernelRun_A c i arg2 harg2 arg3 harg3 arg4 harg4 hc0 x0 x1).1)

/-- At any other point the body's one store tiles the result block, so it covers it. -/
theorem cover_B (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512 .f32) (harg4 : arg4.IsWhole) (hc0 : ¬cond0 i)
    (x0 x1 : Vec F S512x1024 .f32) (xo : Vec F S512 .f32) (y : S512.Idx) :
    ∃ pc ∈ (kernelRun_B c i arg2 harg2 arg3 harg3 arg4 harg4 hc0 x0 x1 xo).1, y ∈ pc.1.set :=
  View.cover_of_tiledL (kernelRun_B c i arg2 harg2 arg3 harg3 arg4 harg4 hc0 x0 x1 xo).1 S512.size (by sl_kernel_rfl) y

/-- What such a point leaves in the result buffer, over the contents `xo` it found there. -/
def out_B (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512 .f32) (harg4 : arg4.IsWhole) (hc0 : ¬cond0 i)
    (x0 x1 : Vec F S512x1024 .f32) (xo : Vec F S512 .f32) : Vec F S512 .f32 :=
  VO2.read (Elt F) (VO2.writes (Elt F) VO2.junk (kernelRun_B c i arg2 harg2 arg3 harg3 arg4 harg4 hc0 x0 x1 xo).1)

/-- The running contents of the result buffer after the body at position `n`: reset and folded at a point that opens a
    row of the grid, folded over what position `n - 1` left otherwise. -/
def outsAt (c : Dev nD) : (n : ℕ) → n < cfg0.N → Vec F S512 .f32
  | 0, hn => out_A c (grid0.coords ⟨0, hn⟩) (ms0 ⟨0, hn⟩) (hs0 ⟨0, hn⟩) (ms1 ⟨0, hn⟩) (hs1 ⟨0, hn⟩) (ms2 ⟨0, hn⟩) (hs2 ⟨0, hn⟩) ((hcond0 ⟨0, hn⟩).mpr (Nat.zero_mod _)) (iblk V c 0 ⟨0, hn⟩) (iblk V c 1 ⟨0, hn⟩)
  | n + 1, hn =>
    if h0 : (n + 1) % 16 = 0 then
      out_A c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) ((hcond0 ⟨n + 1, hn⟩).mpr h0) (iblk V c 0 ⟨n + 1, hn⟩) (iblk V c 1 ⟨n + 1, hn⟩)
    else
      out_B c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (fun h => h0 ((hcond0 ⟨n + 1, hn⟩).mp h)) (iblk V c 0 ⟨n + 1, hn⟩) (iblk V c 1 ⟨n + 1, hn⟩) (outsAt c n (Nat.lt_of_succ_lt hn))

/-- The running contents at a point that opens a row. -/
theorem outsAt_A (c : Dev nD) (t : Fin cfg0.N) (h0 : t.val % 16 = 0) :
    outsAt V c t.val t.isLt = out_A c (grid0.coords t) (ms0 t) (hs0 t) (ms1 t) (hs1 t) (ms2 t) (hs2 t) ((hcond0 t).mpr h0) (iblk V c 0 t) (iblk V c 1 t) := by
  obtain ⟨n, hn⟩ := t
  cases n with
  | zero => exact rfl
  | succ n => exact (dif_pos h0).trans rfl

/-- The running contents at any other point, over what the point before left. -/
theorem outsAt_B (c : Dev nD) (t : Fin cfg0.N) (h0 : ¬t.val % 16 = 0) :
    outsAt V c t.val t.isLt = out_B c (grid0.coords t) (ms0 t) (hs0 t) (ms1 t) (hs1 t) (ms2 t) (hs2 t) (fun h => h0 ((hcond0 t).mp h)) (iblk V c 0 t) (iblk V c 1 t)
      (outsAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The proof data: the arrays as the region finds them; after the body each input's buffer at its block and the result
    buffer at its running contents; the class's invariant; nothing owed; the input array's share halved between the two
    windows that stage it. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => outsAt V c t.val t.isLt
  Φ _ := Pipeline.ΦA spec0 c
  q w := match w with
    | ⟨0, _⟩ => fullShare.left
    | ⟨1, _⟩ => fullShare.right
    | ⟨2, _⟩ => fullShare
  owed _ := 0

theorem A_eq (c : Dev nD) (w : Fin cfg0.W) : (dat0 V c).A w = V c (Pipeline.arrRef spec0 w) := by
  dsimp only [dat0]
theorem q_0 (c : Dev nD) : (dat0 V c).q 0 = fullShare.left := rfl
theorem q_1 (c : Dev nD) : (dat0 V c).q 1 = fullShare.right := rfl

theorem after_0 (c : Dev nD) (t : Fin cfg0.N) : (dat0 V c).after 0 t = iblk V c 0 t := by dsimp only [dat0]
theorem after_1 (c : Dev nD) (t : Fin cfg0.N) : (dat0 V c).after 1 t = iblk V c 1 t := by dsimp only [dat0]
theorem after_2 (c : Dev nD) (t : Fin cfg0.N) : (dat0 V c).after 2 t = outsAt V c t.val t.isLt := by dsimp only [dat0]

theorem before_0 (c : Dev nD) (t : Fin cfg0.N) (d) : (dat0 V c).before 0 t d = iblk V c 0 t :=
  before_0_of V (dat0 V c) (A_eq V c 0) (after_0 V c) t d
theorem before_1 (c : Dev nD) (t : Fin cfg0.N) (d) : (dat0 V c).before 1 t d = iblk V c 1 t :=
  before_1_of V (dat0 V c) (A_eq V c 1) (after_1 V c) t d
/-- Inside a row of the grid the result buffer holds what the body left at the point before: it is not written back
    between. -/
theorem before_2_B (c : Dev nD) (t : Fin cfg0.N) (h0 : ¬t.val % 16 = 0) (d) :
    (dat0 V c).before 2 t d = outsAt V c (t.val - 1) (Nat.lt_of_le_of_lt (Nat.sub_le _ _) t.isLt) := by
  have hN : t.val < 256 := lt_of_lt_of_eq t.isLt (show cfg0.N = 256 from N_0)
  rw [Dat.before_out_kept _ 2 rfl t (by omega) (Bool.eq_false_iff.mpr fun h => by have := (flush0_2 _).mp h; dsimp only at this; omega)
    (fun _ => rfl) (fun _ _ => rfl)]
  dsimp only [dat0]

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d))
    ∗ (∃ d, owns (c : Thread nD τ) (ms2 t) fullShare ((dat0 V c).before 2 t d)))

/-- and what it returns. -/
def bodyPost (c : Dev nD) (t : Fin cfg0.N) : sProp 𝕄 :=
  iprop((dat0 V c).Φ t.succ ∗ (dat0 V c).owesAt () t.succ
    ∗ owns (c : Thread nD τ) (ms0 t) fullShare ((dat0 V c).after 0 t)
    ∗ owns (c : Thread nD τ) (ms1 t) fullShare ((dat0 V c).after 1 t)
    ∗ owns (c : Thread nD τ) (ms2 t) fullShare ((dat0 V c).after 2 t))

set_option maxHeartbeats 800000 in
/-- The body at any point: the inputs' buffers hold their blocks; the closed form of the branch condition says which
    case the point is in, and inside a row the result buffer holds what the point before left; so that case's run
    applies; the invariant passes through unread; nothing is owed. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat0 V c).Φ t.succ = (dat0 V c).Φ t.castSucc from rfl,
    show (dat0 V c).owesAt () t.succ = (dat0 V c).owesAt () t.castSucc from rfl,
    after_0, after_1, after_2]
  have hN : t.val < 256 := lt_of_lt_of_eq t.isLt (show cfg0.N = 256 from N_0)
  by_cases h0 : t.val % 16 = 0
  · rw [outsAt_A V c t h0]
    unfold out_A
    iintro ⟨HΦ, Ho, ⟨%d0, H0⟩, ⟨%d1, H1⟩, ⟨%d2, H2⟩⟩
    iapply ((kernelRun_A c (grid0.coords t) _ _ _ _ _ _ ((hcond0 t).mpr h0) (iblk V c 0 t) (iblk V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover_A c _ _ _ _ _ _ _ _ _ _)
  · rw [outsAt_B V c t h0]
    simp only [before_2_B V c t h0]
    unfold out_B
    iintro ⟨HΦ, Ho, ⟨%d0, H0⟩, ⟨%d1, H1⟩, ⟨%d2, H2⟩⟩
    iapply ((kernelRun_B c (grid0.coords t) _ _ _ _ _ _ (fun h => h0 ((hcond0 t).mp h)) (iblk V c 0 t) (iblk V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover_B c _ _ _ _ _ _ _ _ _ _ _)

/-- The library's body obligation, at every point. -/
theorem body_obligation (c : Dev nD) : BodyObligation (dat0 (F := F) V c) (defs₀ (F := F)) Variants.none () Set.univ := fun t => by
  rw [bigSep_W0, bigSep_W0]
  exact sound_body V c t

end Cert.KernelIdeal.Body

end
-- ==== Proof.SharedArrays.lean ====
/-
  Two separation-logic entailments for a pipeline two of whose three windows read the SAME array.

  Windows 0 and 1 are inputs on one buffer, window 2 is the output on another, so the map from windows to buffers is
  not injective and the core's unscoped buffers cannot be dealt one whole buffer per window.  Instead the shared
  buffer's full share is cut into its left and right halves: window 0 holds the buffer at the left half, window 1 at
  the right half, and the output window holds its own buffer at the full share.

  Entry: the core's unscoped buffers at contents `V` are the distinct buffers behind the windows (two of them) and the
  rest; the shared buffer's points-to at the full share is the two points-tos at the half shares, at the same contents,
  so the three windows' arrays are obtained at the contents read off `V`.

  Exit: conversely, the three windows' arrays at contents `Fw` and the rest at `V` give the core's unscoped buffers at
  any `V'` that has the arrays at `Fw` and agrees with `V` elsewhere.  Windows 0 and 1 then both hold the shared
  buffer, at `Fw 0` and `Fw 1`; both are `V'` of that one buffer, hence equal, which is what lets the two halves be
  joined back into the full share.

  Everything is stated for an arbitrary float instance: no arithmetic is involved.
-/
import proofs.«161005_j72189810311269_2_alg».proof.Proof.Gen.KernelIdeal.Launch
import Idealize.ShloMosaic.Lib.Pipeline.Regions
import Idealize.ShloMosaic.Lib.Pipeline.RegionsLoop
import Idealize.ShloMosaic.Lib.Pipeline.Kit

noncomputable section

namespace Cert.KernelIdeal.Shared

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-- The prefetched tables' admissible contents: the one pipeline has no table. -/
abbrev adm : (p : Fin 1) → (pcfgs (F := F) p).Adm := fun p => (cfgs p).toPCfg_adm

/-- The distinct buffers behind the three windows are two: the shared input buffer and the output buffer, each whole
    at the full share. -/
theorem arrBufs_chain (c : Dev nD) (V : (b : Ref sig .tc) → Buf (Elt F) ((c : Thread nD τ).loc b)) :
    (Pipeline.arrBufs spec0 c V : sProp 𝕄)
      = iprop((((c : Thread nD τ).loc main_v5) ↦{fullShare} V main_v5) ∗ (((c : Thread nD τ).loc main_v6) ↦{fullShare} V main_v6)) := by
  unfold Pipeline.arrBufs
  exact bigSep_eq_bigSepL_of_eq [main_v5, main_v6] (by decide) (by decide) _

variable (pdats : (p : Fin 1) → (c : Dev nD) → Pipeline.Dat τ (Elt F) Unit ℕ (UR sig nD τ) ℕ (Pipeline.pin (pcfgs (F := F)) adm p) c)

/-- The three windows' arrays one by one: each array is a whole buffer, so its element set is everything; the two
    input windows hold the shared buffer at their own shares, the output window holds its buffer at the full share. -/
theorem arrays_chain (c : Dev nD) (Fw : (w : Fin 3) → Buf (Elt F) ((spec0 w).arr.view.loc (c : Thread nD τ))) :
    ((pdats 0 c).arrays Fw : sProp 𝕄)
      = iprop((((c : Thread nD τ).loc main_v5) ↦{(pdats 0 c).q 0} Fw 0) ∗ (((c : Thread nD τ).loc main_v5) ↦{(pdats 0 c).q 1} Fw 1)
          ∗ (((c : Thread nD τ).loc main_v6) ↦{fullShare} Fw 2)) := by
  unfold Pipeline.Dat.arrays
  refine (bigSep_W0 _).trans ?_
  refine congrArg₂ _ ?_ (congrArg₂ _ ?_ ?_)
  · rw [(arr_whole0 0).set_eq_univ]
    rfl
  · rw [(arr_whole0 1).set_eq_univ]
    rfl
  · rw [(arr_whole0 2).set_eq_univ]
    rfl

/-- ENTRY.  A core's unscoped buffers at contents `V` are the pipeline's arrays at the entry contents — those being
    read off `V` (`hA`), window 0 at the left half of the shared buffer's share and window 1 at the right half — and
    the unscoped rest: the full share of the shared buffer is the composite of its two halves. -/
theorem arrays_of_unscopedBufs_shared (c : Dev nD) (hq0 : (pdats 0 c).q 0 = fullShare.left) (hq1 : (pdats 0 c).q 1 = fullShare.right)
    (V : (b : Ref sig .tc) → Buf (Elt F) ((c : Thread nD τ).loc b)) (hA : ∀ w, (pdats 0 c).A w = V (Pipeline.arrRef spec0 w)) :
    (unscopedBufs c V : sProp 𝕄) ⊢ iprop((pdats 0 c).arrays (pdats 0 c).A ∗ Pipeline.unscopedRest spec0 c V) := by
  have hsplit := Pipeline.unscopedBufs_split₀ (Ix := Unit) (Name := ℕ) (U := UR sig nD τ) (Lvl := ℕ)
    (Pipeline.pin (pcfgs (F := F)) adm) 0 winFacts₀0.arr_unscoped c V
  rw [hsplit]
  refine sep_mono ?_ .rfl
  refine (Entails.of_eq (arrBufs_chain c V)).trans ?_
  refine BIBase.Entails.trans ?_ (Entails.of_eq (arrays_chain pdats c _).symm)
  rw [hq0, hq1, hA 0, hA 1, hA 2]
  have hhalve := (pointsTo_share (PosShare.mem_left_op_right fullShare)
    : (((c : Thread nD τ).loc main_v5) ↦{fullShare} V main_v5 : sProp 𝕄) ⊣⊢ _).1
  iintro ⟨H5, H6⟩
  ihave H := hhalve $$ H5
  icases H with ⟨Hl, Hr⟩
  isplitl [Hl]; · iexact Hl
  isplitl [Hr]; · iexact Hr
  iexact H6

/-- EXIT.  The pipeline's arrays at contents `Fw` (window 0 at the left half, window 1 at the right half) and the
    unscoped rest at `V` are the core's unscoped buffers at any valuation `V'` that has the arrays at `Fw` (`hF`) and
    agrees with `V` off them (`hrest`).  The two input windows hold one buffer; `hF` makes both their contents `V'` of
    that buffer, so the two half shares join into the full share at one contents. -/
theorem unscopedBufs_of_arrays_shared (c : Dev nD) (hq0 : (pdats 0 c).q 0 = fullShare.left) (hq1 : (pdats 0 c).q 1 = fullShare.right)
    (V V' : (b : Ref sig .tc) → Buf (Elt F) ((c : Thread nD τ).loc b))
    (Fw : (w : Fin 3) → Buf (Elt F) (((spec0 w).arr.view.loc (c : Thread nD τ))))
    (hF : ∀ w, Fw w = V' (Pipeline.arrRef spec0 w))
    (hrest : ∀ b, b ∉ Finset.univ.image (Pipeline.arrRef spec0) → V' b = V b) :
    iprop((pdats 0 c).arrays Fw ∗ Pipeline.unscopedRest spec0 c V) ⊢ (unscopedBufs c V' : sProp 𝕄) := by
  have hsplit := Pipeline.unscopedBufs_split₀ (Ix := Unit) (Name := ℕ) (U := UR sig nD τ) (Lvl := ℕ)
    (Pipeline.pin (pcfgs (F := F)) adm) 0 winFacts₀0.arr_unscoped c V'
  rw [hsplit]
  refine sep_mono ?_ (Entails.of_eq ?_)
  · refine (Entails.of_eq (arrays_chain pdats c Fw)).trans ?_
    refine BIBase.Entails.trans ?_ (Entails.of_eq (arrBufs_chain c V').symm)
    rw [hq0, hq1, hF 0, hF 1, hF 2]
    have hjoin := (pointsTo_share (PosShare.mem_left_op_right fullShare)
      : (((c : Thread nD τ).loc main_v5) ↦{fullShare} V' main_v5 : sProp 𝕄) ⊣⊢ _).2
    iintro ⟨Hl, Hr, H6⟩
    isplitl [Hl Hr]
    · iapply hjoin
      isplitl [Hl]; · iexact Hl
      iexact Hr
    iexact H6
  · unfold Pipeline.unscopedRest
    exact bigSep_congr fun b hb => by rw [hrest b (Finset.mem_sdiff.mp hb).2]

end Cert.KernelIdeal.Shared

end
-- ==== Proof.KI.Run.lean ====
/-
  The run of `KernelIdeal`'s @main from the launch to the return, at any float instance: three stretches of host operations
  (the reshape; the row norms; the clamp, broadcast and division that normalise the rows), the one kernel region, and
  the host epilogue.  The buffer contents at each boundary are a fold through @main; the region is entered with every
  unscoped buffer held whole, splits the normalised array's buffer in two halves for the two windows that stage it,
  and gives everything back with the result array at what the pipeline's write-backs leave and every other buffer as
  found.  Every weakly fair execution terminates, without a fault, in a state whose unscoped buffers hold the last
  boundary's contents; in particular the argument array is as launched.
-/
import proofs.«161005_j72189810311269_2_alg».proof.Proof.KI.Data
import proofs.«161005_j72189810311269_2_alg».proof.Proof.SharedArrays
import Idealize.ShloMosaic.Lib.Pipeline.RegionsLoop
import Idealize.ShloMosaic.Lib.Pipeline.FrameSuffix

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the reshape. -/
abbrev W1 : Dev nD → Valuation τ sig (Elt F) := fun c => StableHlo.after hostOps0 (W0 m ρ c)
/-- After the row norms. -/
abbrev W2 : Dev nD → Valuation τ sig (Elt F) := fun c => StableHlo.after hostOps0_1 (W1 m ρ c)
/-- After the normalisation: the region's entry. -/
abbrev W3 : Dev nD → Valuation τ sig (Elt F) := fun c => StableHlo.after hostOps0_2 (W2 m ρ c)
/-- The same read at the TensorCore's references (what the region's proof data take). -/
abbrev V3 : (c : Dev nD) → (b : Ref sig .tc) → Buf (Elt F) ((c : Thread nD τ).loc b) := fun c b => W3 m ρ c b
/-- At the region's exit: the result array at what the write-backs leave, every other buffer as entered. -/
def W4 (c : Dev nD) : Valuation τ sig (Elt F) := fun b =>
  if h : Proc.devRef .tc main_v6 = b then
    cast (congrArg (fun b' : DevRef τ sig => b'.ty.Contents (Elt F)) h) ((dat0 (V3 m ρ) c).arrAt 2 cfg0.N)
  else W3 m ρ c b
theorem W4_v6 (c : Dev nD) : W4 m ρ c (Proc.devRef .tc main_v6) = (dat0 (V3 m ρ) c).arrAt 2 cfg0.N := by
  unfold W4; rw [dif_pos rfl]; rfl
theorem W4_of_ne (c : Dev nD) (b : Ref sig .tc) (hb : main_v6 ≠ b) :
    W4 m ρ c (Proc.devRef .tc b) = W3 m ρ c (Proc.devRef .tc b) := by
  unfold W4; rw [dif_neg]; intro e; exact hb (Proc.devRef_injective _ e)
abbrev V4 : (c : Dev nD) → (b : Ref sig .tc) → Buf (Elt F) ((c : Thread nD τ).loc b) := fun c b => W4 m ρ c b
/-- After the host epilogue: the last boundary. -/
abbrev W5 : Dev nD → Valuation τ sig (Elt F) := fun c => StableHlo.after hostOps1 (W4 m ρ c)

/-- At the exit each array holds what the pipeline leaves: the two input windows their array as found, the result
    window its write-backs. -/
theorem hF (c : Dev nD) (w : Fin cfg0.W) : (dat0 (V3 m ρ) c).arrAt w cfg0.N = V4 m ρ c (Pipeline.arrRef spec0 w) :=
  match w with
  | ⟨0, _⟩ => (((dat0 (V3 m ρ) c).arrAt_in 0 rfl _).trans (A_eq (V3 m ρ) c 0)).trans (W4_of_ne m ρ c main_v5 (by decide)).symm
  | ⟨1, _⟩ => (((dat0 (V3 m ρ) c).arrAt_in 1 rfl _).trans (A_eq (V3 m ρ) c 1)).trans (W4_of_ne m ρ c main_v5 (by decide)).symm
  | ⟨2, _⟩ => (W4_v6 m ρ c).symm
theorem hrest (c : Dev nD) : ∀ b, b ∉ Finset.univ.image (Pipeline.arrRef spec0) → V4 m ρ c b = V3 m ρ c b :=
  fun b hb => W4_of_ne m ρ c b fun e => hb (Finset.mem_image.mpr ⟨2, Finset.mem_univ _, e⟩)

/-- The argument ends as launched: no host operation writes it and the region only reads arrays that are not it. -/
theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_forall_not_mem (b := Proc.devRef .tc main_arg0) _ _ (List.forall_iff_forall_mem.mp (by
          simp only [hostOps1, StableHlo.TRef.nullary, StableHlo.TRef.unary, StableHlo.TRef.binary, StableHlo.TRef.of, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps0_2, StableHlo.TRef.nullary, StableHlo.TRef.unary, StableHlo.TRef.binary, StableHlo.TRef.of, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := StableHlo.after_of_forall_not_mem (b := Proc.devRef .tc main_arg0) _ _ (List.forall_iff_forall_mem.mp (by
          simp only [hostOps0_1, StableHlo.TRef.nullary, StableHlo.TRef.unary, StableHlo.TRef.binary, StableHlo.TRef.of, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [hostOps0, StableHlo.TRef.nullary, StableHlo.TRef.unary, StableHlo.TRef.binary, StableHlo.TRef.of, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-! ## The proof data family and the thread state -/

/-- The one pipeline's proof data, at the region's entry contents. -/
def pdats : (p : Fin 1) → (c : Dev nD) → Dat τ (Elt F) Unit ℕ (UR sig nD τ) ℕ (Pipeline.pin (pcfgs (F := F)) Shared.adm p) c
  | ⟨0, _⟩ => fun c => dat0 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the last boundary's contents, the generator register at some state. -/
abbrev Tₙ (c : Dev nD) : sProp 𝕄 := iprop(StableHlo.held (c : Thread nD τ) (Pipeline.ucRefs τ sig) (W5 m ρ c) ∗ ∃ r, prngReg c r)

/-! ## The region as a segment -/

set_option backward.isDefEq.respectTransparency.types false in
/-- The region over the thread state: entered from every unscoped buffer at `W3`, left at `W4`. -/
def reg0 : Pipeline.RegionSeg (pcfgs (F := F)) Shared.adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Shared.arrays_of_unscopedBufs_shared (pdats m ρ) c rfl rfl (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Shared.unscopedBufs_of_arrays_shared (pdats m ρ) c rfl rfl
      (V3 m ρ c) (V4 m ρ c) ((pdats m ρ 0 c).arrAt · cfg0.N) (hF m ρ c) (hrest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) Shared.adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)) ]
/-- @main is the run of the segments. -/
theorem main_run (c : Dev nD) : main (F := F) c = Pipeline.Seg.run (segs m ρ) := (main_chain c).trans (by chain_rfl)

set_option backward.isDefEq.respectTransparency.types false in
/-- From any memory with zero counters every weakly fair execution of @main terminates, nothing faulting, and every
    final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) Shared.adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The frame: every weakly fair execution terminates, nothing faulting, the argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c _ (mem_uc main_arg0 (by decide))).trans (W5_main_arg0 m ρ c)) (run_all m ρ)

end Cert.KernelIdeal.Body

end
-- ==== Proof.KI.OutValue.lean ====
/-
  What the body leaves in the result buffer, read back as values, for `KernelIdeal` at any float instance.

  At a point inside a row of the grid the body's one store covers the result block with the fold payload of the two
  input blocks and the contents found there.  At a point that opens a row the body first stores the reset payload,
  reads it back, and its second store covers the block with the fold payload over that read-back; so the block ends at
  the fold payload of the two input blocks over the reset payload.  Hence the running contents after each point are a
  recursion of the fold payload along the points.
-/
import proofs.«161005_j72189810311269_2_alg».proof.Proof.KI.Data
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz1 : (![0] : Fin 1 → Nat) = fun _ => 0 := funext fun a => by fin_cases a; rfl
theorem hz2 : (![0, 0] : Fin 2 → Nat) = fun _ => 0 := funext fun a => by fin_cases a <;> rfl

/-- Inside a row: the fold payload of the two blocks over what the buffer held. -/
theorem out_B_eq (c : Dev nD) (i : grid0.Coords) (a2 : Memref sig .tc .vmem S512x1024 .f32) (h2 : a2.IsWhole) (a3 : Memref sig .tc .vmem S512x1024 .f32) (h3 : a3.IsWhole) (a4 : Memref sig .tc .vmem S512 .f32) (h4 : a4.IsWhole) (hc : ¬cond0 i)
    (x0 x1 : Vec F S512x1024 .f32) (xo : Vec F S512 .f32) :
    out_B c i a2 h2 a3 h3 a4 h4 hc x0 x1 xo = k0_pay2 i x0 x1 xo := by
  unfold out_B
  rw [View.read_writes_eq_canon _ _ _ (cover_B c i a2 h2 a3 h3 a4 h4 hc x0 x1 xo)]
  unfold kernelRun_B
  dsimp only
  rw [View.canon_unit_zero hz1]
  simp only [View.readAt_eq_ld, h2.read_unread, h3.read_unread, h4.read_unread, View.ld_unit_zero (S := S512x1024) hz2,
    View.ld_unit_zero (S := S512) hz1]

/-- Opening a row: the fold payload of the two blocks over the reset payload. -/
theorem out_A_eq (c : Dev nD) (i : grid0.Coords) (a2 : Memref sig .tc .vmem S512x1024 .f32) (h2 : a2.IsWhole) (a3 : Memref sig .tc .vmem S512x1024 .f32) (h3 : a3.IsWhole) (a4 : Memref sig .tc .vmem S512 .f32) (h4 : a4.IsWhole) (hc : cond0 i)
    (x0 x1 : Vec F S512x1024 .f32) :
    out_A c i a2 h2 a3 h3 a4 h4 hc x0 x1 = k0_pay2 i x0 x1 (k0_pay1 (F := F)) := by
  unfold out_A
  rw [View.read_writes_eq_canon _ _ _ (cover_A c i a2 h2 a3 h3 a4 h4 hc x0 x1)]
  unfold kernelRun_A
  dsimp only
  sl_unfold_words
  rw [View.canon_cons_unit_zero (S := S512) hz1, View.readCov_unit_zero (S := S512) _ hz1]
  simp only [View.readAt_eq_ld, h2.read_unread, h3.read_unread, View.ld_unit_zero (S := S512x1024) hz2,
    View.ld_unit_zero (S := S512) hz1]

/-- The running contents after position `n` as a recursion of the fold payload. -/
def fold (c : Dev nD) : (n : ℕ) → n < cfg0.N → Vec F S512 .f32
  | 0, h => k0_pay2 (grid0.coords ⟨0, h⟩) (iblk V c 0 ⟨0, h⟩) (iblk V c 1 ⟨0, h⟩) (k0_pay1 (F := F))
  | n + 1, h =>
    if (n + 1) % 16 = 0 then k0_pay2 (grid0.coords ⟨n + 1, h⟩) (iblk V c 0 ⟨n + 1, h⟩) (iblk V c 1 ⟨n + 1, h⟩) (k0_pay1 (F := F))
    else k0_pay2 (grid0.coords ⟨n + 1, h⟩) (iblk V c 0 ⟨n + 1, h⟩) (iblk V c 1 ⟨n + 1, h⟩) (fold c n (Nat.lt_of_succ_lt h))

/-- The running contents the run finds are that recursion: by induction on the point. -/
theorem outsAt_eq (c : Dev nD) : ∀ (n : ℕ) (h : n < cfg0.N), outsAt V c n h = fold V c n h
  | 0, h => (outsAt_A V c ⟨0, h⟩ rfl).trans (out_A_eq ..)
  | n + 1, h => by
    by_cases h0 : (n + 1) % 16 = 0
    · rw [outsAt_A V c ⟨n + 1, h⟩ h0, out_A_eq]
      show _ = if (n + 1) % 16 = 0 then _ else _
      rw [if_pos h0]
    · rw [outsAt_B V c ⟨n + 1, h⟩ h0, out_B_eq]
      show _ = if (n + 1) % 16 = 0 then _ else _
      rw [if_neg h0]
      show k0_pay2 _ _ _ (outsAt V c n _) = k0_pay2 _ _ _ (fold V c n _)
      rw [outsAt_eq c n]

end Cert.KernelIdeal.Body

end
-- ==== Proof.BodyValue.lean ====
/-
  The body of the kernel, read at one entry.

  At grid point (i₀, i₁) the body holds two loaded blocks of 512 rows of 1024 extended reals, the row block a and the
  column block b, and the running minimum m of 512 entries.  It forms the 512 × 512 block of inner products
  ⟨a p, b q⟩ = ∑ₖ a[p,k] · b[q,k] (a product of a with the transpose of b into a zero accumulator; narrowing the operands
  to a shorter format is the identity on extended reals), turns each into the chordal distance
  √(2 − 2 · min (⟨a p, b q⟩, 1) + ε), replaces by +∞ the entries whose global row 512·i₀ + p equals their global column
  512·i₁ + q, takes the minimum along each row of the block, and folds that into m by min.  This file says so entry by
  entry: the value stored at p is min (m p) (the infimum over q of the masked distance at (p, q)).

  Three facts carry it.  The global row and column numbers are below 8192, so the 32-bit words that hold them do not
  wrap, and comparing the words is comparing the numbers.  A product of a matrix with a transposed matrix into a zero
  accumulator is, entry by entry, the sum over the contracted axis of the products of entries.  A minimum taken along
  the second axis starting from +∞ is the infimum over that axis's coordinates: +∞ is the top element, and the infimum
  of a finite family is the fold of min from the top.
-/
import proofs.«161005_j72189810311269_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx Idealize.SL.Sem
open Cert.KernelIdeal Cert.KernelIdeal.Gen

namespace Cert.KernelIdeal.BodyValue

/-! ## The mask: global row number against global column number, as 32-bit words -/

/-- With block numbers below 16 and offsets below 512 the words 512·a + p and 512·b + q are below 8192: no wrap, so the
    words are equal exactly when the numbers are. -/
theorem word_eq_iff (a b p q : Nat) (ha : a < 16) (hb : b < 16) (hp : p < 512) (hq : q < 512) :
    IntOp.addi (Scalar.muli (BitVec.ofNat 32 a) 512#32) (BitVec.ofNat 32 p)
        = IntOp.addi (Scalar.muli (BitVec.ofNat 32 b) 512#32) (BitVec.ofNat 32 q)
      ↔ 512 * a + p = 512 * b + q := by
  unfold IntOp.addi Scalar.muli IntOp.muli
  rw [← BitVec.toNat_inj]
  simp only [BitVec.toNat_add, BitVec.toNat_mul, BitVec.toNat_ofNat]
  omega

/-- A select on the comparison of those two words is the if on the numbers. -/
theorem mask_select {α : Type} (a b p q : Nat) (ha : a < 16) (hb : b < 16) (hp : p < 512) (hq : q < 512) (A B : α) :
    Scalar.select (IntOp.cmpi .eq (IntOp.addi (Scalar.muli (BitVec.ofNat 32 a) 512#32) (BitVec.ofNat 32 p))
        (IntOp.addi (Scalar.muli (BitVec.ofNat 32 b) 512#32) (BitVec.ofNat 32 q))) A B
      = if 512 * a + p = 512 * b + q then A else B := by
  unfold Scalar.select
  exact if_congr (IntOp.cmpi_eq.trans (word_eq_iff a b p q ha hb hp hq)) rfl rfl

/-! ## The lane minimum -/

/-- The fold of min from the top element is the infimum. -/
theorem fold_min_top {ι : Type} (s : Finset ι) (f : ι → EReal) (init : EReal) (hi : init = ⊤) :
    s.fold (FloatOps.minimumf (F := Ideal) (φ := .f32)) init f = s.inf f := by
  subst hi
  induction s using Finset.cons_induction with
  | empty => rfl
  | cons a s ha ih =>
    rw [Finset.fold_cons, Finset.inf_cons, ih]
    exact le_antisymm (le_inf (min_le_left _ _) (min_le_right _ _)) (le_min inf_le_left inf_le_right)

/-- The word 0x7F800000 is +∞, the top element. -/
theorem ofBits_inf : Ideal.ofBits .f32 0x7F800000#32 = (⊤ : EReal) := by simp [Ideal.ofBits, Ideal.ieee]

/-- A minimum-reduction of a 512 × 512 block along its second axis, starting from +∞, read at row p: the infimum over
    the 512 columns. -/
theorem laneMin_apply (w : FVec Ideal S512x512 .f32) (h : S512x512.Reduces [1] S512) (hφ : FKind.Formats .f32)
    (hacc : (0x7F800000#32 : BitVec 32) = FKind.minimumf.neutral .f32 hφ) (p : Fin 512) :
    multiReduction .minimumf [1] S512 w 0x7F800000#32 h hφ hacc (ix1 p)
      = Finset.univ.inf fun q : Fin 512 => w (ix2 p q) := by
  refine (multiReduction_minimumf_eq_fold w _ h hφ hacc (ix1 p)).trans ?_
  refine (h.fold_filter_drop_single FloatOps.minimumf _ w (ix1 p)).trans ?_
  have hl : ∀ q : Fin 512, h.lift (ix1 p) q = ix2 p q := fun q => funext fun c => Fin.ext (by
    match c with
    | ⟨0, _⟩ => rfl
    | ⟨1, _⟩ => rfl)
  exact (fold_min_top (Finset.univ : Finset (Fin 512)) (fun q => w (h.lift (ix1 p) q)) _ ofBits_inf).trans
    (congrArg (Finset.inf Finset.univ) (funext fun q => congrArg w (hl q)))

/-! ## The block of inner products -/

/-- The operand positions of the block product at output entry j and contraction position k: the left operand is read
    at row j₀ ... -/
theorem lhs_row (j : S512x512.Idx) (k : dot_S512x1024_S1024x512_S512x512_1_0_0_1_n_n.contr.Idx) :
    (dot_S512x1024_S1024x512_S512x512_1_0_0_1_n_n.lhsIdx j k 0).val = (j 0).val := by
  unfold DotDims.lhsIdx
  rw [dif_neg (show ¬(0 : Fin S512x1024.rank) ∈ dot_S512x1024_S1024x512_S512x512_1_0_0_1_n_n.lhsBatch by decide),
    dif_pos (show (0 : Fin S512x1024.rank) ∈ dot_S512x1024_S1024x512_S512x512_1_0_0_1_n_n.lhsNonContracting by decide)]
  rfl
/-- ... and column k; -/
theorem lhs_contr (j : S512x512.Idx) (k : dot_S512x1024_S1024x512_S512x512_1_0_0_1_n_n.contr.Idx) :
    (dot_S512x1024_S1024x512_S512x512_1_0_0_1_n_n.lhsIdx j k 1).val = (k ⟨0, by decide⟩).val :=
  dot_S512x1024_S1024x512_S512x512_1_0_0_1_n_n.lhsIdx_val_of_single rfl j k
/-- the right operand at row k ... -/
theorem rhs_contr (j : S512x512.Idx) (k : dot_S512x1024_S1024x512_S512x512_1_0_0_1_n_n.contr.Idx) :
    (dot_S512x1024_S1024x512_S512x512_1_0_0_1_n_n.rhsIdx j k 0).val = (k ⟨0, by decide⟩).val :=
  dot_S512x1024_S1024x512_S512x512_1_0_0_1_n_n.rhsIdx_val_of_single rfl j k
/-- ... and column j₁. -/
theorem rhs_col (j : S512x512.Idx) (k : dot_S512x1024_S1024x512_S512x512_1_0_0_1_n_n.contr.Idx) :
    (dot_S512x1024_S1024x512_S512x512_1_0_0_1_n_n.rhsIdx j k 1).val = (j 1).val := by
  unfold DotDims.rhsIdx
  rw [dif_neg (show ¬(1 : Fin S1024x512.rank) ∈ dot_S512x1024_S1024x512_S512x512_1_0_0_1_n_n.rhsBatch by decide),
    dif_pos (show (1 : Fin S1024x512.rank) ∈ dot_S512x1024_S1024x512_S512x512_1_0_0_1_n_n.rhsNonContracting by decide)]
  rfl

/-- Entry (p, q) of the product of a 512 × 1024 block with the transpose of another, into a zero accumulator: the inner
    product of row p of the first with row q of the second. -/
theorem blockProduct_apply (x y : FVec Ideal S512x1024 .bf16) (ht : S512x1024.Transposes [1, 0] S1024x512) (p q : Fin 512) :
    matmul dot_S512x1024_S1024x512_S512x512_1_0_0_1_n_n none x (transpose S1024x512 [1, 0] y ht)
        (constant (F := Ideal) S512x512 .f32 0x00000000#32) (ix2 p q)
      = ∑ k : Fin 1024, x (ix2 p k) * y (ix2 q k) := by
  simp only [matmul]
  rw [Ideal.matmul_constant_zero_apply,
    ← Equiv.sum_comp (contrEquiv1 dot_S512x1024_S1024x512_S512x512_1_0_0_1_n_n 1024 rfl rfl).symm]
  refine Finset.sum_congr rfl fun k _ => ?_
  have hk := contrEquiv1_symm_val dot_S512x1024_S1024x512_S512x512_1_0_0_1_n_n 1024 rfl rfl k
  have el : dot_S512x1024_S1024x512_S512x512_1_0_0_1_n_n.lhsIdx (ix2 p q)
      ((contrEquiv1 dot_S512x1024_S1024x512_S512x512_1_0_0_1_n_n 1024 rfl rfl).symm k) = ix2 p k :=
    funext fun a => Fin.ext (by
      match a with
      | ⟨0, _⟩ => exact lhs_row _ _
      | ⟨1, _⟩ => exact (lhs_contr _ _).trans hk)
  have er : dot_S512x1024_S1024x512_S512x512_1_0_0_1_n_n.rhsIdx (ix2 p q)
      ((contrEquiv1 dot_S512x1024_S1024x512_S512x512_1_0_0_1_n_n 1024 rfl rfl).symm k) = ix2 k q :=
    funext fun a => Fin.ext (by
      match a with
      | ⟨0, _⟩ => exact (rhs_contr _ _).trans hk
      | ⟨1, _⟩ => exact rhs_col _ _)
  rw [el, er]
  exact congrArg (x (ix2 p k) * ·) (transpose_ix2_apply y ht k q)

/-! ## The mask read at an entry -/

/-- The row counter of the block reads the row ... -/
theorem rowIota_apply (h : S512x512.Iotas .tc 32 [0]) (p q : Fin 512) :
    iota .tc S512x512 32 [0] h (ix2 p q) = BitVec.ofNat 32 p.val :=
  iota_single_apply .tc S512x512 32 0 h (ix2 p q)
/-- ... and the column counter the column. -/
theorem colIota_apply (h : S512x512.Iotas .tc 32 [1]) (p q : Fin 512) :
    iota .tc S512x512 32 [1] h (ix2 p q) = BitVec.ofNat 32 q.val :=
  iota_single_apply .tc S512x512 32 1 h (ix2 p q)

/-- The select between two blocks on "global row = global column", read at entry (p, q): the if on the numbers. -/
theorem mask_apply (i : grid0.Coords) (h0 : S512x512.Iotas .tc 32 [0]) (h1 : S512x512.Iotas .tc 32 [1])
    (A B : FVec Ideal S512x512 .f32) (p q : Fin 512) :
    select (cmpi .eq
        (addi (broadcast S512x512 (Scalar.muli (BitVec.ofNat 32 (i 0).val) 512#32)) (iota .tc S512x512 32 [0] h0))
        (addi (broadcast S512x512 (Scalar.muli (BitVec.ofNat 32 (i 1).val) 512#32)) (iota .tc S512x512 32 [1] h1)))
      A B (ix2 p q)
      = if 512 * (i 0).val + p.val = 512 * (i 1).val + q.val then A (ix2 p q) else B (ix2 p q) := by
  show Scalar.select (IntOp.cmpi .eq
      (IntOp.addi (Scalar.muli (BitVec.ofNat 32 (i 0).val) 512#32) (iota .tc S512x512 32 [0] h0 (ix2 p q)))
      (IntOp.addi (Scalar.muli (BitVec.ofNat 32 (i 1).val) 512#32) (iota .tc S512x512 32 [1] h1 (ix2 p q))))
    (A (ix2 p q)) (B (ix2 p q)) = _
  rw [rowIota_apply, colIota_apply]
  exact mask_select (i 0).val (i 1).val p.val q.val (i 0).isLt (i 1).isLt p.isLt q.isLt _ _

/-! ## The two stored values -/

/-- The value that resets the running minimum is +∞ everywhere. -/
theorem pay1_apply (p : Fin 512) : k0_pay1 (F := Ideal) (ix1 p) = Ideal.ofBits .f32 0x7F800000#32 := rfl

/-- The masked distance inside a block, over the two loaded blocks: +∞ where the global row number equals the global
    column number, the chordal distance of row p of the row block and row q of the column block elsewhere. -/
def blockDist (i : grid0.Coords) (v0 v3 : Vec Ideal S512x1024 .f32) (p q : Fin 512) : EReal :=
  if 512 * (i 0).val + p.val = 512 * (i 1).val + q.val then Ideal.ofBits .f32 0x7F800000#32
  else Ideal.sqrt (Ideal.ofBits .f32 0x40000000#32
      - Ideal.ofBits .f32 0x40000000#32 * min (∑ k : Fin 1024, v0 (ix2 p k) * v3 (ix2 q k)) (Ideal.ofBits .f32 0x3F800000#32)
    + Ideal.ofBits .f32 0x38D1B717#32)

/-- The value the body stores: at p, the running minimum there against the infimum over the block's 512 columns of the
    masked distances of row p. -/
theorem pay2_apply (i : grid0.Coords) (v0 v3 : Vec Ideal S512x1024 .f32) (v32 : Vec Ideal S512 .f32) (p : Fin 512) :
    k0_pay2 (F := Ideal) i v0 v3 v32 (ix1 p)
      = min (v32 (ix1 p)) (Finset.univ.inf fun q : Fin 512 => blockDist i v0 v3 p q) := by
  unfold k0_pay2
  rw [minimumf_apply]
  simp only [shapeCast_self]
  refine congrArg _ ((laneMin_apply _ _ _ _ p).trans ?_)
  refine congrArg (Finset.inf Finset.univ) (funext fun q => ?_)
  refine (mask_apply i _ _ _ _ p q).trans ?_
  unfold blockDist
  refine if_congr Iff.rfl rfl ?_
  refine congrArg Ideal.sqrt (congrArg (· + Ideal.ofBits .f32 0x38D1B717#32)
    (congrArg (Ideal.ofBits .f32 0x40000000#32 - ·) (congrArg (Ideal.ofBits .f32 0x40000000#32 * ·)
      (congrArg (min · (Ideal.ofBits .f32 0x3F800000#32)) ?_))))
  exact blockProduct_apply _ _ _ p q

end Cert.KernelIdeal.BodyValue

end
-- ==== Proof.Spec.lean ====
/-
  The function both programs compute, stated once over literal shapes and importing no program.

  For an array `x` of 8192 rows of 1024 extended reals, the masked chordal distance between rows `r` and `c` is
  `+∞` on the diagonal and otherwise `√(2 − 2 · min (⟨x r, x c⟩, 1) + ε)`, with `⟨x r, x c⟩ = ∑ₖ x[r,k] · x[c,k]` over
  the 1024 columns and `ε` the single-precision word nearest to 10⁻⁴.  The nearest-neighbour distance of row `r` is the
  infimum of these over all 8192 columns `c`.  The literals are kept as the words the programs print: the same word on
  both sides is never evaluated.
-/
import Idealize.ShloMosaic.PureOps.Ideal
import Idealize.ShloMosaic.Lib.ValueIdx

noncomputable section

open Idealize.ShloMosaic Idealize.ShloMosaic.ValueIdx

namespace Cert.NearestDist

/-- The shape of the normalised array: 8192 rows of 1024 columns. -/
abbrev SX : Shape := ⟨2, ![8192, 1024]⟩
/-- The shape of the result: one distance per row. -/
abbrev SR : Shape := ⟨1, ![8192]⟩

/-- The inner product of rows `r` and `c`, a sum over the 1024 columns. -/
def inner (x : SX.Idx → EReal) (r c : Fin 8192) : EReal :=
  ∑ k : Fin 1024, x (ix2 r k) * x (ix2 c k)

/-- The chordal distance between rows `r` and `c` before masking: `√(2 − 2 · min (inner, 1) + ε)`. -/
def chord (x : SX.Idx → EReal) (r c : Fin 8192) : EReal :=
  Ideal.sqrt (Ideal.ofBits .f32 0x40000000#32
      - Ideal.ofBits .f32 0x40000000#32 * min (inner x r c) (Ideal.ofBits .f32 0x3F800000#32)
    + Ideal.ofBits .f32 0x38D1B717#32)

/-- The masked distance: `+∞` from a row to itself, the chordal distance otherwise. -/
def dist (x : SX.Idx → EReal) (r c : Fin 8192) : EReal :=
  if r = c then Ideal.ofBits .f32 0x7F800000#32 else chord x r c

/-- The nearest-neighbour distance of each row: the infimum of the masked distances over all columns. -/
def nearest (x : SX.Idx → EReal) : SR.Idx → EReal :=
  fun i => Finset.univ.inf fun c : Fin 8192 => dist x (i 0) c

/-- The infimum's universal property: a bound lies below the nearest-neighbour distance of row `r` exactly when it lies
    below every masked distance of that row. -/
theorem le_nearest_iff (x : SX.Idx → EReal) (i : SR.Idx) (y : EReal) :
    y ≤ nearest x i ↔ ∀ c : Fin 8192, y ≤ dist x (i 0) c := by
  unfold nearest
  rw [Finset.le_inf_iff]
  exact ⟨fun h c => h c (Finset.mem_univ c), fun h c _ => h c⟩

end Cert.NearestDist

end
-- ==== Proof.BlockMin.lean ====
/-
  The block law of the minimum.

  The 8192 columns split into 16 consecutive blocks of 512: column `c` is column `c % 512` of block `c / 512`.  The
  infimum of the masked distances of a row over all columns is therefore reached by folding, with `min` and starting
  from the top element, the sixteen block infima in order.  Everything is carried by the universal property of an
  infimum: a bound lies below the running minimum after `n` blocks exactly when it lies below every masked distance
  to a column of the first `n` blocks.
-/
import proofs.«161005_j72189810311269_2_alg».proof.Proof.Spec

noncomputable section

open Idealize.ShloMosaic Idealize.ShloMosaic.ValueIdx

namespace Cert.NearestDist

/-- The single-precision word of `+∞` is the top element of the extended reals. -/
theorem ofBits_inf : Ideal.ofBits .f32 0x7F800000#32 = (⊤ : EReal) := by
  simp [Ideal.ofBits, Ideal.ieee]

/-- column index c = 512*j + q of block j -/
def col (j : Fin 16) (q : Fin 512) : Fin 8192 := ⟨512 * j.val + q.val, by omega⟩

/-- Every column is a column of exactly the block its quotient by 512 names. -/
theorem eq_col (c : Fin 8192) :
    c = col ⟨c.val / 512, by omega⟩ ⟨c.val % 512, Nat.mod_lt _ (by decide)⟩ := by
  apply Fin.ext
  show c.val = 512 * (c.val / 512) + c.val % 512
  omega

/-- The infimum of the masked distances of row `r` over the 512 columns of block `j`. -/
def blockMin (x : SX.Idx → EReal) (r : Fin 8192) (j : Fin 16) : EReal :=
  Finset.univ.inf fun q : Fin 512 => dist x r (col j q)

/-- the running minimum after the first n column blocks, starting from the top element -/
def runMin (x : SX.Idx → EReal) (r : Fin 8192) : Nat → EReal
  | 0 => ⊤
  | n + 1 => if h : n < 16 then min (runMin x r n) (blockMin x r ⟨n, h⟩) else runMin x r n

theorem runMin_zero (x : SX.Idx → EReal) (r : Fin 8192) : runMin x r 0 = ⊤ := rfl

theorem runMin_succ (x : SX.Idx → EReal) (r : Fin 8192) (n : Nat) (h : n < 16) :
    runMin x r (n + 1) = min (runMin x r n) (blockMin x r ⟨n, h⟩) := by
  rw [runMin, dif_pos h]

/-- A bound lies below a block's infimum exactly when it lies below every masked distance of the block. -/
theorem le_blockMin_iff (x : SX.Idx → EReal) (r : Fin 8192) (j : Fin 16) (y : EReal) :
    y ≤ blockMin x r j ↔ ∀ q : Fin 512, y ≤ dist x r (col j q) := by
  unfold blockMin
  rw [Finset.le_inf_iff]
  exact ⟨fun h q => h q (Finset.mem_univ q), fun h q _ => h q⟩

/-- A bound lies below the running minimum after `n` blocks exactly when it lies below every masked distance to a
    column of the first `n` blocks. -/
theorem le_runMin_iff (x : SX.Idx → EReal) (r : Fin 8192) (y : EReal) (n : Nat) (hn : n ≤ 16) :
    y ≤ runMin x r n ↔ ∀ j : Fin 16, j.val < n → ∀ q : Fin 512, y ≤ dist x r (col j q) := by
  induction n with
  | zero =>
    rw [runMin_zero]
    exact ⟨fun _ j hj => absurd hj (Nat.not_lt_zero _), fun _ => le_top⟩
  | succ n ih =>
    have h : n < 16 := hn
    rw [runMin_succ x r n h, le_min_iff, ih (Nat.le_of_lt h), le_blockMin_iff]
    constructor
    · rintro ⟨h1, h2⟩ j hj q
      rcases Nat.lt_succ_iff_lt_or_eq.mp hj with hlt | heq
      · exact h1 j hlt q
      · have hj' : j = ⟨n, h⟩ := Fin.ext heq
        rw [hj']
        exact h2 q
    · intro H
      exact ⟨fun j hj q => H j (Nat.lt_succ_of_lt hj) q, fun q => H ⟨n, h⟩ (Nat.lt_succ_self n) q⟩

/-- After all sixteen blocks the running minimum is the nearest-neighbour distance of the row. -/
theorem runMin_sixteen (x : SX.Idx → EReal) (r : Fin 8192) : runMin x r 16 = nearest x (ix1 r) := by
  refine eq_of_forall_le_iff fun y => ?_
  rw [le_runMin_iff x r y 16 (Nat.le_refl 16), le_nearest_iff]
  show (∀ j : Fin 16, j.val < 16 → ∀ q : Fin 512, y ≤ dist x r (col j q)) ↔ ∀ c : Fin 8192, y ≤ dist x r c
  constructor
  · intro H c
    rw [eq_col c]
    exact H _ (Fin.isLt _) _
  · intro H j _ q
    exact H (col j q)

end Cert.NearestDist

end
-- ==== Proof.KernelValue.lean ====
/-
  The kernel's result array, read as a value at the ideal instance: it ends holding the nearest-neighbour distances of
  the normalised array the region finds.

  Point `t` of the grid has row block `t / 16` and column block `t % 16`.  Its first input block is rows
  `512 · (t / 16) + p` of the array and its second rows `512 · (t % 16) + q`; the mask's integer comparison is the
  equality of those two row numbers; so the block's masked distances are the specification's distances between that
  row and the columns of column block `t % 16`.  By induction along the points of a row of the grid, the result buffer
  holds after point `t` the running minimum over the first `t % 16 + 1` column blocks, which after the sixteenth is
  the infimum over all columns.  The buffer is written back exactly then, to rows `512 · (t / 16) …` of the result
  array, and these sixteen write-backs cover the array.
-/
import proofs.«161005_j72189810311269_2_alg».proof.Proof.KI.OutValue
import proofs.«161005_j72189810311269_2_alg».proof.Proof.BodyValue
import proofs.«161005_j72189810311269_2_alg».proof.Proof.BlockMin

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.Body Cert.KernelIdeal.BodyValue Cert.NearestDist

variable (V : (c : Dev nD) → (b : Ref sig .tc) → Buf (Elt Ideal) ((c : Thread nD τ).loc b))

/-- The normalised array as the region finds it. -/
abbrev X (c : Dev nD) : SX.Idx → EReal := V c main_v5

/-- The row block and the column block of point `t`, as vectors of their literal shape. -/
abbrev rowBlk (c : Dev nD) (t : Fin cfg0.N) : Vec Ideal S512x1024 .f32 := iblk V c 0 t
abbrev colBlk (c : Dev nD) (t : Fin cfg0.N) : Vec Ideal S512x1024 .f32 := iblk V c 1 t

/-- The grid's coordinates and the windows' block indices at every point, decided over the grid. -/
theorem grid_facts : ∀ t : Fin cfg0.N, (grid0.coords t 0).val = t.val / 16 ∧ (grid0.coords t 1).val = t.val % 16
    ∧ win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 1) = t.val / 16 :=
  (by decide +kernel : ∀ t : Fin grid0.N, _)

theorem lt_N (t : Fin cfg0.N) : t.val < 256 := lt_of_lt_of_eq t.isLt (show cfg0.N = 256 from N_0)

/-- Row `p` of the row block of point `t`, as a row of the array. -/
def rowOf (t : Fin cfg0.N) (p : Fin 512) : Fin 8192 := ⟨512 * (t.val / 16) + p.val, by have := lt_N t; omega⟩
/-- The column block of point `t`. -/
def blkOf (t : Fin cfg0.N) : Fin 16 := ⟨t.val % 16, Nat.mod_lt _ (by decide)⟩

/-- The first input block's rows are the array's rows `512 · (t / 16) + p`. -/
theorem iblk_row (c : Dev nD) (t : Fin cfg0.N) (p : Fin 512) (k : Fin 1024) :
    rowBlk V c t (ix2 p k) = X V c (ix2 (rowOf t p) k) := by
  obtain ⟨-, -, e0, e1, -, -, -⟩ := grid_facts t
  unfold rowBlk iblk
  rw [View.read_apply]
  show V c main_v5 _ = V c main_v5 _
  congr 1
  funext a
  apply Fin.ext
  match a with
  | ⟨0, _⟩ => show win0_0.index t 0 * 512 + 1 * p.val = 512 * (t.val / 16) + p.val; rw [e0]; omega
  | ⟨1, _⟩ => show win0_0.index t 1 * 1024 + 1 * k.val = k.val; rw [e1]; omega

/-- The second input block's rows are the array's rows `512 · (t % 16) + q`. -/
theorem iblk_col (c : Dev nD) (t : Fin cfg0.N) (q : Fin 512) (k : Fin 1024) :
    colBlk V c t (ix2 q k) = X V c (ix2 (col (blkOf t) q) k) := by
  obtain ⟨-, -, -, -, e0, e1, -⟩ := grid_facts t
  unfold colBlk iblk
  rw [View.read_apply]
  show V c main_v5 _ = V c main_v5 _
  congr 1
  funext a
  apply Fin.ext
  match a with
  | ⟨0, _⟩ => show win0_1.index t 0 * 512 + 1 * q.val = 512 * (t.val % 16) + q.val; rw [e0]; omega
  | ⟨1, _⟩ => show win0_1.index t 1 * 1024 + 1 * k.val = k.val; rw [e1]; omega

/-- The block's masked distance is the specification's distance between the row and the column it stands for. -/
theorem blockDist_eq (c : Dev nD) (t : Fin cfg0.N) (p q : Fin 512) :
    blockDist (grid0.coords t) (rowBlk V c t) (colBlk V c t) p q = NearestDist.dist (X V c) (rowOf t p) (col (blkOf t) q) := by
  obtain ⟨g0, g1, -⟩ := grid_facts t
  have hcond : (512 * (grid0.coords t 0).val + p.val = 512 * (grid0.coords t 1).val + q.val) ↔ rowOf t p = col (blkOf t) q := by
    rw [g0, g1]
    exact ⟨fun h => Fin.ext h, fun h => congrArg Fin.val h⟩
  have hsum : (∑ k : Fin 1024, rowBlk V c t (ix2 p k) * colBlk V c t (ix2 q k)) = NearestDist.inner (X V c) (rowOf t p) (col (blkOf t) q) :=
    Finset.sum_congr rfl fun k _ => by rw [iblk_row, iblk_col]
  unfold blockDist NearestDist.dist NearestDist.chord
  rw [hsum]
  by_cases h : rowOf t p = col (blkOf t) q
  · rw [if_pos (hcond.mpr h), if_pos h]
  · rw [if_neg (fun h' => h (hcond.mp h')), if_neg h]

/-- So the block's row minimum is the specification's block minimum. -/
theorem blockInf_eq (c : Dev nD) (t : Fin cfg0.N) (p : Fin 512) :
    (Finset.univ.inf fun q : Fin 512 => blockDist (grid0.coords t) (rowBlk V c t) (colBlk V c t) p q)
      = blockMin (X V c) (rowOf t p) (blkOf t) := by
  unfold blockMin
  exact congrArg _ (funext fun q => blockDist_eq V c t p q)

/-- One fold step: over contents that are the running minimum after `j` column blocks, at a point of column block
    `j`, the fold payload is the running minimum after `j + 1`. -/
theorem step (c : Dev nD) (t : Fin cfg0.N) (p : Fin 512) (acc : Vec Ideal S512 .f32)
    (hacc : acc (ix1 p) = runMin (X V c) (rowOf t p) (t.val % 16)) :
    k0_pay2 (F := Ideal) (grid0.coords t) (rowBlk V c t) (colBlk V c t) acc (ix1 p)
      = runMin (X V c) (rowOf t p) (t.val % 16 + 1) := by
  rw [pay2_apply (grid0.coords t) (rowBlk V c t) (colBlk V c t) acc p, hacc, blockInf_eq V c t p,
    runMin_succ (X V c) (rowOf t p) (t.val % 16) (Nat.mod_lt _ (by decide))]
  rfl

/-- The reset payload is the running minimum after no block: the top element. -/
theorem reset_eq (c : Dev nD) (t : Fin cfg0.N) (p : Fin 512) (h0 : t.val % 16 = 0) :
    k0_pay1 (F := Ideal) (ix1 p) = runMin (X V c) (rowOf t p) (t.val % 16) := by
  rw [pay1_apply, NearestDist.ofBits_inf, h0, runMin_zero]

/-- The recursion's successor step at a point that opens a row of the grid, -/
theorem fold_open (c : Dev nD) (n : ℕ) (h : n + 1 < cfg0.N) (h0 : (n + 1) % 16 = 0) :
    fold V c (n + 1) h = k0_pay2 (F := Ideal) (grid0.coords ⟨n + 1, h⟩) (iblk V c 0 ⟨n + 1, h⟩) (iblk V c 1 ⟨n + 1, h⟩) (k0_pay1 (F := Ideal)) :=
  (if_pos h0).trans rfl
/-- and inside a row. -/
theorem fold_in (c : Dev nD) (n : ℕ) (h : n + 1 < cfg0.N) (h0 : ¬(n + 1) % 16 = 0) :
    fold V c (n + 1) h = k0_pay2 (F := Ideal) (grid0.coords ⟨n + 1, h⟩) (iblk V c 0 ⟨n + 1, h⟩) (iblk V c 1 ⟨n + 1, h⟩) (fold V c n (Nat.lt_of_succ_lt h)) :=
  (if_neg h0).trans rfl

/-- The running contents after point `n` are the running minimum over the first `n % 16 + 1` column blocks. -/
theorem fold_eq (c : Dev nD) : ∀ (n : ℕ) (h : n < cfg0.N) (p : Fin 512),
    fold V c n h (ix1 p) = runMin (X V c) (rowOf ⟨n, h⟩ p) (n % 16 + 1)
  | 0, h, p => step V c ⟨0, h⟩ p _ (reset_eq V c ⟨0, h⟩ p rfl)
  | n + 1, h, p => by
    have hN : n + 1 < 256 := lt_N ⟨n + 1, h⟩
    by_cases h0 : (n + 1) % 16 = 0
    · rw [fold_open V c n h h0]
      exact step V c ⟨n + 1, h⟩ p _ (reset_eq V c ⟨n + 1, h⟩ p h0)
    · rw [fold_in V c n h h0]
      refine step V c ⟨n + 1, h⟩ p _ ?_
      rw [fold_eq c n (Nat.lt_of_succ_lt h) p]
      have hr : rowOf ⟨n, Nat.lt_of_succ_lt h⟩ p = rowOf ⟨n + 1, h⟩ p := by
        apply Fin.ext
        show 512 * (n / 16) + p.val = 512 * ((n + 1) / 16) + p.val
        omega
      have hj : n % 16 + 1 = (n + 1) % 16 := by omega
      rw [hr, hj]

/-- What a write-back writes: the block of the nearest-neighbour distances at its rows. -/
theorem flushed_eq (c : Dev nD) (t : Fin cfg0.N) (hf : (cfg0.win 2).flush t = true) :
    (dat0 V c).flushed 2 t = ((cfg0.win 2).blk t).view.read (Elt Ideal) (nearest (X V c)) := by
  have h15 : t.val % 16 = 15 := (flush0_2 t).mp hf
  obtain ⟨-, -, -, -, -, -, e2⟩ := grid_facts t
  show (cfg0.win 2).cut (grid0.coords t) ((dat0 V c).after 2 t) = _
  rw [after_2, outsAt_eq]
  funext j
  obtain ⟨p, rfl⟩ : ∃ p : Fin 512, j = ix1 p := ⟨j 0, eq_ix1 j⟩
  rw [View.read_apply]
  show fold V c t.val t.isLt (ix1 p) = nearest (X V c) (((cfg0.win 2).blk t).view.emb (ix1 p))
  rw [fold_eq V c t.val t.isLt p, h15, runMin_sixteen]
  congr 1
  funext a
  apply Fin.ext
  match a with
  | ⟨0, _⟩ => show 512 * (t.val / 16) + p.val = win0_2.index t 0 * 512 + 1 * p.val; rw [e2]; omega

/-- The result array after the run: the nearest-neighbour distances of the normalised array. -/
theorem final (c : Dev nD) : (dat0 V c).arrAt 2 cfg0.N = nearest (X V c) :=
  (dat0 V c).arrAt_eq_of_cover 2 (nearest (X V c)) (flushed_eq V c) fun i => by
    have hi : (i 0).val < 8192 := (i 0).isLt
    have hN : cfg0.N = 256 := N_0
    have ht : 16 * ((i 0).val / 512) + 15 < cfg0.N := by rw [hN]; omega
    refine ⟨⟨16 * ((i 0).val / 512) + 15, ht⟩, (flush0_2 _).mpr (by show (16 * ((i 0).val / 512) + 15) % 16 = 15; omega), ?_⟩
    obtain ⟨-, -, -, -, -, -, e2⟩ := grid_facts ⟨16 * ((i 0).val / 512) + 15, ht⟩
    show i ∈ ((View.whole main_v6).slice (win0_2.rect ⟨16 * ((i 0).val / 512) + 15, ht⟩)).set
    rw [View.set_slice_whole, Rect.mem_set_unit]
    intro a
    match a with
    | ⟨0, _⟩ =>
      show win0_2.index ⟨16 * ((i 0).val / 512) + 15, ht⟩ 0 * 512 ≤ (i 0 : Nat) ∧ (i 0 : Nat) < win0_2.index ⟨16 * ((i 0).val / 512) + 15, ht⟩ 0 * 512 + 512
      rw [e2]
      show (16 * ((i 0).val / 512) + 15) / 16 * 512 ≤ (i 0 : Nat) ∧ (i 0 : Nat) < (16 * ((i 0).val / 512) + 15) / 16 * 512 + 512
      omega

end Cert.KernelIdeal.KValue

end
-- ==== Proof.RefNearest.lean ====
/-
  The reference's row-minimum stage is the nearest-neighbour distance of its normalised array.

  At an entry (r, c) of the 8192 × 8192 array the reference holds, after its mask, `+∞` when the two iotas agree and
  otherwise `√(2 − 2 · min (⟨x r, x c⟩, 1) + ε)`, where `x` is the normalised array and the inner product is the
  `dot_general`'s sum over the 1024 columns.  The iotas are the words of the row and column numbers, both below 8192, so
  they agree exactly when r = c: the entry is the masked distance `dist x r c`.  The reduce over the second axis, from
  `+∞` with a minimum body, is at row r the fold of `min` over the 8192 entries of that row; a bound lies below such a
  fold exactly when it lies below the initial value (here the top element) and below every entry, which is the universal
  property of the infimum that defines `nearest`.  What follows the reduce is one function of the reduced array.
-/
import proofs.«161005_j72189810311269_2_alg».proof.Proof.Gen.ReferenceIdeal.Read
import proofs.«161005_j72189810311269_2_alg».proof.Proof.Spec

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read Cert.NearestDist

/-! ## The mask: two numbers below 8192 have the same 32-bit word exactly when they are equal -/

/-- A select on "the word of r, plus the zero word, equals the word of c" is the `if` on r = c. -/
theorem select_diag {α : Type} (r c : Fin 8192) (A B : α) :
    Scalar.select (IntOp.cmpi .eq (IntOp.addi (BitVec.ofNat 32 r.val) 0#32) (BitVec.ofNat 32 c.val)) A B
      = if r = c then A else B := by
  by_cases h : r = c
  · subst h
    rw [if_pos rfl]
    simp [Scalar.select, IntOp.cmpi, IntOp.addi]
  · rw [if_neg h]
    have hne : ¬ (BitVec.ofNat 32 r.val = BitVec.ofNat 32 c.val) := by
      intro e
      have e' := congrArg BitVec.toNat e
      simp only [BitVec.toNat_ofNat] at e'
      apply h; apply Fin.ext
      have hr := r.isLt; have hc := c.isLt
      omega
    have hb : (BitVec.ofNat 32 r.val == BitVec.ofNat 32 c.val) = false := by simpa using hne
    simp [Scalar.select, IntOp.cmpi, IntOp.addi, hb]

/-! ## The entry (r, c) of the masked array -/

/-- The left factor of the inner product at (r, c) is read in row r. -/
theorem lidx_eq (r c : Fin 8192) (k : Fin 1024) : lidx_main_v6 (ix2 r c) k = ix2 r k :=
  funext fun a => Fin.ext (by match a with | ⟨0, _⟩ => rfl | ⟨1, _⟩ => rfl)

/-- The right factor of the inner product at (r, c) is read in row c. -/
theorem ridx_eq (r c : Fin 8192) (k : Fin 1024) : ridx_main_v6 (ix2 r c) k = ix2 c k :=
  funext fun a => Fin.ext (by match a with | ⟨0, _⟩ => rfl | ⟨1, _⟩ => rfl)

/-- The masked array at (r, c) is the masked distance between rows r and c of the normalised array. -/
theorem masked_at (x0 : (⟨S4x2048x1024, .f32⟩ : BufTy).Contents (Elt Ideal)) (r c : Fin 8192) :
    val_main_v21 (F := Ideal) x0 (ix2 r c) = dist (val_main_v5 (F := Ideal) x0) r c := by
  rw [val_main_v21_apply, val_main_v20_apply, val_main_v19_apply, val_main_v16_apply, val_main_v17_apply,
    val_main_v18_apply, val_main_c_apply, val_main_call1_v1_apply, val_main_call1_v0_apply, val_main_cst_4_apply,
    val_main_v15_apply, val_main_v14_apply, val_main_v13_apply, val_main_cst_3_apply, val_main_v12_apply,
    val_main_v11_apply, val_main_cst_2_apply, val_main_v10_apply, val_main_v9_apply, val_main_cst_1_apply,
    val_main_v8_apply, val_main_v7_apply, val_main_cst_0_apply, val_main_v6_apply]
  simp only [lidx_eq, ridx_eq]
  refine (select_diag r c _ _).trans ?_
  rfl

/-! ## The reduce over the columns -/

/-- Dropping the second axis of the 8192 × 8192 array leaves the 8192 rows. -/
theorem reduces_d1 : S8192x8192.Reduces [1] S8192 := by decide

/-- Row r with column k put back is the entry (r, k). -/
theorem lift_row (r : Fin 8192) (k : Fin (S8192x8192.size 1)) :
    reduces_d1.lift (ix1 r) k = ix2 r (⟨k.val, k.isLt⟩ : Fin 8192) := by
  funext c; apply Fin.ext
  fin_cases c <;> rfl

/-- The single-precision word of `+∞` is the top element of the extended reals. -/
theorem inf_top : Ideal.ofBits .f32 0x7F800000#32 = (⊤ : EReal) := by
  simp [Ideal.ofBits, Ideal.ieee]

/-- The row minimum at row r is the nearest-neighbour distance of row r: both are the greatest lower bound of the
    masked distances of the row. -/
theorem rowMin_at (x0 : (⟨S4x2048x1024, .f32⟩ : BufTy).Contents (Elt Ideal)) (r : Fin 8192) :
    val_main_v22 (F := Ideal) x0 (ix1 r) = nearest (val_main_v5 (F := Ideal) x0) (ix1 r) := by
  unfold val_main_v22
  rw [Host.reduce_eq_fold_single FloatOps.minimumf _ _ reducesTo_S8192x8192_S8192_d1 reduces_d1 h_S_]
  refine eq_of_forall_le_iff fun y => ?_
  rw [le_nearest_iff]
  refine Iff.trans (Finset.le_fold_min (β := EReal) y) ?_
  have hinit : val_main_cst_5 (F := Ideal) (Shape.Idx.first h_S_) = (⊤ : EReal) := by
    rw [val_main_cst_5_apply]; exact inf_top
  constructor
  · rintro ⟨_, H⟩ c
    have hc := H (⟨c.val, c.isLt⟩ : Fin (S8192x8192.size 1)) (Finset.mem_univ _)
    rw [Function.comp_apply, lift_row, masked_at] at hc
    exact hc
  · intro H
    refine ⟨by rw [hinit]; exact le_top, fun k _ => ?_⟩
    rw [Function.comp_apply, lift_row, masked_at]
    exact H _

/-- The reference's row-minimum stage is the nearest-neighbour distance of its normalised array. -/
theorem ref_nearest (x0 : (⟨S4x2048x1024, .f32⟩ : BufTy).Contents (Elt Ideal)) :
    val_main_v22 (F := Ideal) x0 = nearest (val_main_v5 (F := Ideal) x0) := by
  funext i
  obtain ⟨r, rfl⟩ : ∃ r : Fin 8192, i = ix1 r := ⟨i 0, eq_ix1 i⟩
  exact rowMin_at x0 r

/-! ## What follows the reduce -/

/-- the reference's epilogue as ONE function of the row-min array: minus the mean over the 8192 rows of
    `log (n r + δ)`, with `δ` the word nearest to 10⁻⁸ -/
def refTail (n : SR.Idx → EReal) : (⟨S_, .f32⟩ : BufTy).Contents (Elt Ideal) :=
  Host.negf (F := Ideal) (Host.divf (F := Ideal)
    (Host.reduceAdd (F := Ideal)
      (Host.log (F := Ideal) (addf (F := Ideal) (φ := .f32) n
        (broadcastInDim S8192 ![] bcast_S_S8192 (constant (F := Ideal) S_ .f32 0x322BCC77#32))))
      (constant (F := Ideal) S_ .f32 0x00000000#32) reducesTo_S8192_S_d0 h_S_)
    (constant (F := Ideal) S_ .f32 0x46000000#32))

/-- The reference's result is the epilogue of the nearest-neighbour distances of its normalised array. -/
theorem ref_result (x0 : (⟨S4x2048x1024, .f32⟩ : BufTy).Contents (Elt Ideal)) :
    val_main_v28 (F := Ideal) x0 = refTail (nearest (val_main_v5 (F := Ideal) x0)) := by
  rw [← ref_nearest]
  rfl

end Cert.ReferenceIdeal.RefValue

end
-- ==== Proof.HostEnds.lean ====
/-
  The host operations around the kernel's region are the reference's own.

  Before the region the kernel's program reshapes its argument to 8192 rows of 1024 and divides each row by the larger of
  its Euclidean norm and 10⁻¹²: the same eleven operations, in the same order and on the same literal shapes, by which the
  reference forms its normalised array.  After the region it adds the word nearest to 10⁻⁸ to the region's output, takes
  the logarithm, sums the 8192 entries from zero, divides by 8192 and negates: the reference's epilogue, one function of
  the row-minimum array.  Both facts hold from any contents of the buffers, and neither opens an operation: the two
  programs' terms are the same term.
-/
import proofs.«161005_j72189810311269_2_alg».proof.Proof.Gen.KernelIdeal.Launch
import proofs.«161005_j72189810311269_2_alg».proof.Proof.RefNearest
import Idealize.ShloMosaic.Lib.StableHlo.Run

noncomputable section

open Idealize.ShloMosaic Idealize.ShloMosaic.TcCoe Idealize.SL.Sem

namespace Cert.KernelIdeal.HostEnds

open Cert.KernelIdeal Cert.KernelIdeal.Gen

/-- After the operations that precede the region, the array the region reads is the reference's normalised array of the
    program's argument. -/
theorem prologue (W : Valuation τ sig (Elt Ideal)) :
    StableHlo.after (hostOps0_2 (F := Ideal))
        (StableHlo.after (hostOps0_1 (F := Ideal)) (StableHlo.after (hostOps0 (F := Ideal)) W)) (Proc.devRef .tc main_v5)
      = Cert.ReferenceIdeal.Read.val_main_v5 (F := Ideal) (W (Proc.devRef .tc main_arg0)) := by
  after_results
  rfl

/-- After the operations that follow the region, the result is the reference's epilogue of the region's output array. -/
theorem epilogue (W : Valuation τ sig (Elt Ideal)) :
    StableHlo.after (hostOps1 (F := Ideal)) W (Proc.devRef .tc main_v12)
      = Cert.ReferenceIdeal.RefValue.refTail (W (Proc.devRef .tc main_v6)) := by
  after_results
  rfl

end Cert.KernelIdeal.HostEnds

end
-- ==== Proof.lean ====
/-
  Both programs take one array of 4 × 2048 × 1024 single-precision numbers, read it as 8192 rows of 1024, and divide
  each row by the larger of its Euclidean norm and 10⁻¹²: the same host operations in both.  The reference then forms
  all 8192 × 8192 inner products of the normalised rows at once, clamps them above by 1, turns them into chordal
  distances `√(2 − 2·s + ε)`, replaces the diagonal by `+∞` and takes each row's minimum.  The kernel computes the same
  distances block by block on a 16 × 16 grid of 512 × 512 blocks, its two input windows staging the row block and the
  column block of the one normalised array, takes each block's row minima and folds them with `min` into a block of
  512 results that is reset to `+∞` when a row of the grid opens and written back when it closes.  Both finish with the
  same host operations: add 10⁻⁸, take logarithms, average, negate.

  At the ideal instance the rounding to half precision before the matrix product is the identity, the product into a
  zero accumulator is the reference's contraction, the mask's integer comparison `512·i + p = 512·j + q` is the equality
  of the row and column numbers, and the minimum of a row over all columns is the running minimum of its sixteen block
  minima starting from the top element — a law of the order alone, so the finiteness of the input is never used.

  Every weakly fair execution of each kernel program terminates without a fault and leaves its argument as launched:
  the host stretches run over every unscoped buffer held whole, and the region splits the normalised array's buffer
  into two halves for the two windows that stage it and joins them again at its exit.  The idealisation rewrote no
  operation, so it preserves the kernel trivially.
-/
import proofs.«161005_j72189810311269_2_alg».proof.Defs
import proofs.«161005_j72189810311269_2_alg».proof.Proof.Gen.Kernel
import proofs.«161005_j72189810311269_2_alg».proof.Proof.Gen.KernelIdeal
import proofs.«161005_j72189810311269_2_alg».proof.Proof.Gen.ReferenceIdeal
import proofs.«161005_j72189810311269_2_alg».proof.Proof.Gen.Pre_finite_inputs
import proofs.«161005_j72189810311269_2_alg».proof.Proof.Gen.ReferenceIdeal.Run
import proofs.«161005_j72189810311269_2_alg».proof.Proof.Gen.ReferenceIdeal.Read
import proofs.«161005_j72189810311269_2_alg».proof.Proof.KB.Run
import proofs.«161005_j72189810311269_2_alg».proof.Proof.KI.Run
import proofs.«161005_j72189810311269_2_alg».proof.Proof.KernelValue
import proofs.«161005_j72189810311269_2_alg».proof.Proof.HostEnds
import proofs.«161005_j72189810311269_2_alg».proof.Proof.RefNearest
import Idealize.ShloMosaic.Adequacy
import Idealize.ShloMosaic.Init

noncomputable section

namespace Cert.Proof

open Idealize.ShloMosaic Idealize.ShloMosaic.TcCoe Idealize.SL.Sem

/-- The kernel as printed runs to the end, faults nowhere and leaves its argument unchanged. -/
theorem frame_k : Cert.frame_Kernel := fun m ρ _ => Cert.Kernel.Body.frame m ρ

/-- So does its reading at the ideal instance. -/
theorem frame_ki : Cert.frame_KernelIdeal := fun m ρ _ => Cert.KernelIdeal.Body.frame m ρ

/-- The reference is a line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

open Cert.KernelIdeal Cert.KernelIdeal.Body in
/-- At the ideal instance both programs end at the shared epilogue of the nearest-neighbour distances of the
    normalised array: the kernel's result array holds them after its sixteen write-backs, the reference's row
    minimum is them, and the normalised arrays are the same function of arguments that agree. -/
theorem algebraic : Cert.algebraic_KernelIdeal_ReferenceIdeal := by
  intro m ρ m' ρ' _ hagree
  refine ⟨fun c => Cert.ReferenceIdeal.RefValue.refTail (Cert.NearestDist.nearest
      (Cert.ReferenceIdeal.Read.val_main_v5 (F := Ideal) (m ((c.tc : Thread nD τ).loc main_arg0)))), ?_, ?_⟩
  · refine (θ_run Cert.KernelIdeal.defs _ _).mono (fun r h c => ⟨?_, ?_⟩) (run_all (F := Ideal) m ρ)
    · refine (h c _ (mem_uc main_v12 (by decide))).trans ?_
      refine (Cert.KernelIdeal.HostEnds.epilogue (W4 m ρ c)).trans ?_
      rw [W4_v6, Cert.KernelIdeal.KValue.final (V3 m ρ) c]
      show Cert.ReferenceIdeal.RefValue.refTail (Cert.NearestDist.nearest (W3 m ρ c (Proc.devRef .tc main_v5))) = _
      rw [show W3 m ρ c (Proc.devRef .tc main_v5)
          = Cert.ReferenceIdeal.Read.val_main_v5 (F := Ideal) (W0 m ρ c (Proc.devRef .tc main_arg0))
        from Cert.KernelIdeal.HostEnds.prologue (W0 m ρ c)]
    · exact (h c _ (mem_uc main_arg0 (by decide))).trans (W5_main_arg0 m ρ c)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v28_eq, Cert.ReferenceIdeal.RefValue.ref_result, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
